-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x15 : Shape := ⟨2, ![50000, 15]⟩
abbrev S800000 : Shape := ⟨1, ![800000]⟩
abbrev S800000x15 : Shape := ⟨2, ![800000, 15]⟩
abbrev S800000x32 : Shape := ⟨2, ![800000, 32]⟩
abbrev S800000x1 : Shape := ⟨2, ![800000, 1]⟩
abbrev S35x128 : Shape := ⟨2, ![35, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x15 : S_.BroadcastsInDim S50000x15 (![] : Fin 0 → Fin S50000x15.rank)
  reducesTo_S50000x15_S_d0_1 : S50000x15.ReducesTo [0, 1] S_
  bcast_S_S800000x15 : S_.BroadcastsInDim S800000x15 (![] : Fin 0 → Fin S800000x15.rank)
  reducesTo_S800000x15_S_d0_1 : S800000x15.ReducesTo [0, 1] S_
  bcast_S_S800000x32 : S_.BroadcastsInDim S800000x32 (![] : Fin 0 → Fin S800000x32.rank)
  reducesTo_S800000x32_S_d0_1 : S800000x32.ReducesTo [0, 1] S_
  bcast_S_S800000x1 : S_.BroadcastsInDim S800000x1 (![] : Fin 0 → Fin S800000x1.rank)
  reducesTo_S800000x1_S_d0_1 : S800000x1.ReducesTo [0, 1] S_
  bcast_S_S35x128 : S_.BroadcastsInDim S35x128 (![] : Fin 0 → Fin S35x128.rank)
  reducesTo_S35x128_S_d0_1 : S35x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S128x3 .f32) (main_arg14 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x3 .f32 := Host.absf main_arg13
  let main_cst_20 : FVec F S_ .f32 := constant S_ .f32 0x7F800000#32
  let main_v55 : FVec F S128x3 .f32 := broadcastInDim S128x3 ![] bcast_S_S128x3 main_cst_20
  let main_v56 : IVec S128x3 1 := cmpf .olt main_v54 main_v55
  let main_c_21 : IVec S_ 1 := constantI S_ 1 1#1
  let main_v57 : IVec S_ 1 := (fun x v => Host.reduce IntOp.andi x v reducesTo_S128x3_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S35x128 .f32) (main_arg12 : FVec F S128 .f32) (main_arg13 : FVec F S128x3 .f32) (main_arg14 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S35x128 .f32 := Host.absf main_arg11
  let main_cst_16 : FVec F S_ .f32 := constant S_ .f32 0x7F800000#32
  let main_v45 : FVec F S35x128 .f32 := broadcastInDim S35x128 ![] bcast_S_S35x128 main_cst_16
  let main_v46 : IVec S35x128 1 := cmpf .olt main_v44 main_v45
  let main_c_17 : IVec S_ 1 := constantI S_ 1 1#1
  let main_v47 : IVec S_ 1 := (fun x v => Host.reduce IntOp.andi x v reducesTo_S35x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S800000x1 .f32) (main_arg7 : FVec F S35x128 .f32) (main_arg8 : FVec F S128 .f32) (main_arg9 : FVec F S128x128 .f32) (main_arg10 : FVec F S128 .f32) (main_arg11 : FVec F S35x128 .f32) (main_arg12 : FVec F S128 .f32) (main_arg13 : FVec F S128x3 .f32) (main_arg14 : FVec F S3 .f32) (main_v13 : IVec S_ 1) (main_v16 : IVec S800000x32 1) : IVec S_ 1 :=
  let main_c_5 : IVec S_ 1 := constantI S_ 1 1#1
  let main_v17 : IVec S_ 1 := (fun x v => Host.reduce IntOp.andi x v reducesTo_S800000x32_S_d0_1 h_S_) main_v16 main_c_5
  let main_v18 : IVec S_ 1 := andi main_v13 main_v17
  let main_v19 : FVec F S800000x1 .f32 := Host.absf main_arg6
  let main_cst_6 : FVec F S_ .f32 := constant S_ .f32 0x7F800000#32
  let main_v20 : FVec F S800000x1 .f32 := broadcastInDim S800000x1 ![] bcast_S_S800000x1 main_cst_6
  let main_v21 : IVec S800000x1 1 := cmpf .olt main_v19 main_v20
  let main_c_7 : IVec S_ 1 := constantI S_ 1 1#1
  let main_v22 : IVec S_ 1 := (fun x v => Host.reduce IntOp.andi x v reducesTo_S800000x1_S_d0_1 h_S_) main_v21 main_c_7
  let main_v23 : IVec S_ 1 := andi main_v18 main_v22
  let main_v24 : FVec F S35x128 .f32 := Host.absf main_arg7
  let main_cst_8 : FVec F S_ .f32 := constant S_ .f32 0x7F800000#32
  let main_v25 : FVec F S35x128 .f32 := broadcastInDim S35x128 ![] bcast_S_S35x128 main_cst_8
  let main_v26 : IVec S35x128 1 := cmpf .olt main_v24 main_v25
  let main_c_9 : IVec S_ 1 := constantI S_ 1 1#1
  let main_v27 : IVec S_ 1 := (fun x v => Host.reduce IntOp.andi x v reducesTo_S35x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : FVec F S50000x15 .f32) (main_arg2 : IVec S800000 32) (main_arg3 : IVec S800000 32) (main_arg4 : FVec F S800000x15 .f32) (main_arg5 : FVec F S800000x32 .f32) (main_arg6 : FVec F S800000x1 .f32) (main_arg7 : FVec F S35x128 .f32) (main_arg8 : FVec F S128 .f32) (main_arg9 : FVec F S128x128 .f32) (main_arg10 : FVec F S128 .f32) (main_arg11 : FVec F S35x128 .f32) (main_arg12 : FVec F S128 .f32) (main_arg13 : FVec F S128x3 .f32) (main_arg14 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x15 .f32 := Host.absf main_arg1
  let main_cst_0 : FVec F S_ .f32 := constant S_ .f32 0x7F800000#32
  let main_v5 : FVec F S50000x15 .f32 := broadcastInDim S50000x15 ![] bcast_S_S50000x15 main_cst_0
  let main_v6 : IVec S50000x15 1 := cmpf .olt main_v4 main_v5
  let main_c_1 : IVec S_ 1 := constantI S_ 1 1#1
  let main_v7 : IVec S_ 1 := (fun x v => Host.reduce IntOp.andi x v reducesTo_S50000x15_S_d0_1 h_S_) main_v6 main_c_1
  let main_v8 : IVec S_ 1 := andi main_v3 main_v7
  let main_v9 : FVec F S800000x15 .f32 := Host.absf main_arg4
  let main_cst_2 : FVec F S_ .f32 := constant S_ .f32 0x7F800000#32
  let main_v10 : FVec F S800000x15 .f32 := broadcastInDim S800000x15 ![] bcast_S_S800000x15 main_cst_2
  let main_v11 : IVec S800000x15 1 := cmpf .olt main_v9 main_v10
  let main_c_3 : IVec S_ 1 := constantI S_ 1 1#1
  let main_v12 : IVec S_ 1 := (fun x v => Host.reduce IntOp.andi x v reducesTo_S800000x15_S_d0_1 h_S_) main_v11 main_c_3
  let main_v13 : IVec S_ 1 := andi main_v8 main_v12
  let main_v14 : FVec F S800000x32 .f32 := Host.absf main_arg5
  let main_cst_4 : FVec F S_ .f32 := constant S_ .f32 0x7F800000#32
  let main_v15 : FVec F S800000x32 .f32 := broadcastInDim S800000x32 ![] bcast_S_S800000x32 main_cst_4
  let main_v16 : IVec S800000x32 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S50000x15 : Shape := ⟨2, ![50000, 15]⟩
abbrev S800000 : Shape := ⟨1, ![800000]⟩
abbrev S800000x15 : Shape := ⟨2, ![800000, 15]⟩
abbrev S800000x32 : Shape := ⟨2, ![800000, 32]⟩
abbrev S800000x1 : Shape := ⟨2, ![800000, 1]⟩
abbrev S35x128 : Shape := ⟨2, ![35, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S800000x3 : Shape := ⟨2, ![800000, 3]⟩
abbrev S800000x5 : Shape := ⟨2, ![800000, 5]⟩
abbrev S800000x7 : Shape := ⟨2, ![800000, 7]⟩
abbrev S35x256 : Shape := ⟨2, ![35, 256]⟩
abbrev S256 : Shape := ⟨1, ![256]⟩
abbrev S1x256 : Shape := ⟨2, ![1, 256]⟩
abbrev S1x128 : Shape := ⟨2, ![1, 128]⟩
abbrev S1x3 : Shape := ⟨2, ![1, 3]⟩
abbrev S800000x128 : Shape := ⟨2, ![800000, 128]⟩
abbrev S6400x3 : Shape := ⟨2, ![6400, 3]⟩
abbrev S6400x32 : Shape := ⟨2, ![6400, 32]⟩
abbrev S6400x128 : Shape := ⟨2, ![6400, 128]⟩
abbrev S6400x35 : Shape := ⟨2, ![6400, 35]⟩
abbrev S6400x256 : Shape := ⟨2, ![6400, 256]⟩

abbrev nBuf : Space → Nat
  | .hbm => 58
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S50000x15, .f32⟩
  | .hbm, ⟨2, _⟩ => ⟨S800000, .i32⟩
  | .hbm, ⟨3, _⟩ => ⟨S800000, .i32⟩
  | .hbm, ⟨4, _⟩ => ⟨S800000x15, .f32⟩
  | .hbm, ⟨5, _⟩ => ⟨S800000x32, .f32⟩
  | .hbm, ⟨6, _⟩ => ⟨S800000x1, .f32⟩
  | .hbm, ⟨7, _⟩ => ⟨S35x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S35x128, .f32⟩
  | .hbm, ⟨12, _⟩ => ⟨S128, .f32⟩
  | .hbm, ⟨13, _⟩ => ⟨S128x3, .f32⟩
  | .hbm, ⟨14, _⟩ => ⟨S3, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x15, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x15, .f32⟩
  | .hbm, ⟨33, _⟩ => ⟨S800000x15, .f32⟩
  | .hbm, ⟨34, _⟩ => ⟨S800000x15, .f32⟩
  | .hbm, ⟨35, _⟩ => ⟨S800000x3, .f32⟩
  | .hbm, ⟨36, _⟩ => ⟨S_, .f32⟩
  | .hbm, ⟨37, _⟩ => ⟨S800000, .f32⟩
  | .hbm, ⟨38, _⟩ => ⟨S800000x1, .f32⟩
  | .hbm, ⟨39, _⟩ => ⟨S800000x5, .f32⟩
  | .hbm, ⟨40, _⟩ => ⟨S_, .f32⟩
  | .hbm, ⟨41, _⟩ => ⟨S800000, .f32⟩
  | .hbm, ⟨42, _⟩ => ⟨S800000x1, .f32⟩
  | .hbm, ⟨43, _⟩ => ⟨S800000x7, .f32⟩
  | .hbm, ⟨44, _⟩ => ⟨S_, .f32⟩
  | .hbm, ⟨45, _⟩ => ⟨S800000, .f32⟩
  | .hbm, ⟨46, _⟩ => ⟨S800000x1, .f32⟩
  | .hbm, ⟨47, _⟩ => ⟨S800000x3, .f32⟩
  | .hbm, ⟨48, _⟩ => ⟨S35x256, .f32⟩
  | .hbm, ⟨49, _⟩ => ⟨S256, .f32⟩
  | .hbm, ⟨50, _⟩ => ⟨S1x256, .f32⟩
  | .hbm, ⟨51, _⟩ => ⟨S1x128, .f32⟩
  | .hbm, ⟨52, _⟩ => ⟨S1x3, .f32⟩
  | .hbm, ⟨53, _⟩ => ⟨S35x256, .bf16⟩
  | .hbm, ⟨54, _⟩ => ⟨S128x128, .bf16⟩
  | .hbm, ⟨55, _⟩ => ⟨S128x3, .bf16⟩
  | .hbm, ⟨56, _⟩ => ⟨S800000x128, .f32⟩
  | .hbm, ⟨57, _⟩ => ⟨S800000x3, .f32⟩
  | .local _ .vmem, ⟨0, _⟩ => ⟨S6400x3, .f32⟩
  | .local _ .vmem, ⟨1, _⟩ => ⟨S6400x3, .f32⟩
  | .local _ .vmem, ⟨2, _⟩ => ⟨S6400x32, .f32⟩
  | .local _ .vmem, ⟨3, _⟩ => ⟨S6400x32, .f32⟩
  | .local _ .vmem, ⟨4, _⟩ => ⟨S35x256, .bf16⟩
  | .local _ .vmem, ⟨5, _⟩ => ⟨S1x256, .f32⟩
  | .local _ .vmem, ⟨6, _⟩ => ⟨S128x128, .bf16⟩
  | .local _ .vmem, ⟨7, _⟩ => ⟨S1x128, .f32⟩
  | .local _ .vmem, ⟨8, _⟩ => ⟨S128x3, .bf16⟩
  | .local _ .vmem, ⟨9, _⟩ => ⟨S1x3, .f32⟩
  | .local _ .vmem, ⟨10, _⟩ => ⟨S6400x128, .f32⟩
  | .local _ .vmem, ⟨11, _⟩ => ⟨S6400x128, .f32⟩
  | .local _ .vmem, ⟨12, _⟩ => ⟨S6400x3, .f32⟩
  | .local _ .vmem, ⟨13, _⟩ => ⟨S6400x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S35x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x3 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6400x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x15_S800000x3_0_0 : S800000x15.Slices ![0, 0] S800000x3
  reducesTo_S800000x3_S800000_d1 : S800000x3.ReducesTo [1] S800000
  h_S_ : 0 < S_.numel
  slices_S800000x15_S800000x5_0_3 : S800000x15.Slices ![0, 3] S800000x5
  reducesTo_S800000x5_S800000_d1 : S800000x5.ReducesTo [1] S800000
  slices_S800000x15_S800000x7_0_8 : S800000x15.Slices ![0, 8] S800000x7
  reducesTo_S800000x7_S800000_d1 : S800000x7.ReducesTo [1] S800000
  concatenates_S800000x1_S800000x1_S800000x1_S800000x3_d1 : Shape.Concatenates [S800000x1, S800000x1, S800000x1] S800000x3 1
  concatenates_S35x128_S35x128_S35x256_d1 : Shape.Concatenates [S35x128, S35x128] S35x256 1
  concatenates_S128_S128_S256_d0 : Shape.Concatenates [S128, S128] S256 0
  shapeCasts_S256_S1x256 : S256.ShapeCasts S1x256
  shapeCasts_S128_S1x128 : S128.ShapeCasts S1x128
  shapeCasts_S3_S1x3 : S3.ShapeCasts S1x3
  bitsLt_bf16_f32 : FTy.bits .bf16 < FTy.bits .f32
  inb_S6400x3_S6400x3_0_0 : ∀ a, (![0, 0] : Fin 2 → Nat) a + S6400x3.size a ≤ S6400x3.size a
  h_S6400x3 : 0 < S6400x3.numel
  shapeCasts_S6400x3_S6400x3 : S6400x3.ShapeCasts S6400x3
  inb_S6400x32_S6400x32_0_0 : ∀ a, (![0, 0] : Fin 2 → Nat) a + S6400x32.size a ≤ S6400x32.size a
  h_S6400x32 : 0 < S6400x32.numel
  concatenates_S6400x32_S6400x3_S6400x35_d1 : Shape.Concatenates [S6400x32, S6400x3] S6400x35 1
  inb_S35x256_S35x256_0_0 : ∀ a, (![0, 0] : Fin 2 → Nat) a + S35x256.size a ≤ S35x256.size a
  h_S35x256 : 0 < S35x256.numel
  shapeCasts_S35x256_S35x256 : S35x256.ShapeCasts S35x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  slices_S6400x256_o0_0_S6400x128 : S6400x256.Slices ![0, 0] S6400x128
  slices_S6400x256_o0_128_S6400x128 : S6400x256.Slices ![0, 128] S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S6400x3 : S1x3.Broadcasts S6400x3
  gather_S50000x15_S800000x1_S800000x15_1_0_n_n_0_1_115_wf : GatherDims.WF S50000x15 S800000x1 S800000x15 [1] [0] [] [0] [] 1 ![1, 15]
  dot_S6400x35_S35x256_S6400x256_1_0_0_1_n_n_wf : DotDims.WF S6400x35 S35x256 S6400x256 [1] [0] [0] [1] [] []
  dot_S6400x128_S128x128_S6400x128_1_0_0_1_n_n_wf : DotDims.WF S6400x128 S128x128 S6400x128 [1] [0] [0] [1] [] []
  dot_S6400x128_S128x3_S6400x3_1_0_0_1_n_n_wf : DotDims.WF S6400x128 S128x3 S6400x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x3.size a ≤ S800000x3.size a
  hwx0_0 : ∀ i : grid0.Coords, EltTy.bits .f32 = 32 ∨ (Rect.block (s := S800000x3) S6400x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S800000x32.size a
  hwx0_1 : ∀ i : grid0.Coords, EltTy.bits .f32 = 32 ∨ (Rect.block (s := S800000x32) S6400x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S35x256.size a ≤ S35x256.size a
  hwx0_2 : ∀ i : grid0.Coords, EltTy.bits .bf16 = 32 ∨ (Rect.block (s := S35x256) S35x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x3.size a ≤ S128x3.size a
  hwx0_6 : ∀ i : grid0.Coords, EltTy.bits .bf16 = 32 ∨ (Rect.block (s := S128x3) S128x3.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6400x128.size a ≤ S800000x128.size a
  hwx0_8 : ∀ i : grid0.Coords, EltTy.bits .f32 = 32 ∨ (Rect.block (s := S800000x128) S6400x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x3.size a ≤ S800000x3.size a
  hwx0_9 : ∀ i : grid0.Coords, EltTy.bits .f32 = 32 ∨ (Rect.block (s := S800000x3) S6400x3.size (cc0_transform_9 i) (hinb0_9 i)).WholeWords (EltTy.packing .f32)

variable [Facts₀]

def gather_S50000x15_S800000x1_S800000x15_1_0_n_n_0_1_115 : GatherDims S50000x15 S800000x1 S800000x15 where
  offsetDims := [1]
  collapsedSliceDims := [0]
  operandBatchingDims := []
  startIndicesBatchingDims := []
  startIndexMap := [0]
  indexVectorDim := 1
  sliceSizes := ![1, 15]
  wf := gather_S50000x15_S800000x1_S800000x15_1_0_n_n_0_1_115_wf
def dot_S6400x35_S35x256_S6400x256_1_0_0_1_n_n : DotDims S6400x35 S35x256 S6400x256 where
  lhsContracting := [1]
  rhsContracting := [0]
  lhsNonContracting := [0]
  rhsNonContracting := [1]
  lhsBatch := []
  rhsBatch := []
  wf := dot_S6400x35_S35x256_S6400x256_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x3_S6400x3_1_0_0_1_n_n : DotDims S6400x128 S128x3 S6400x3 where
  lhsContracting := [1]
  rhsContracting := [0]
  lhsNonContracting := [0]
  rhsNonContracting := [1]
  lhsBatch := []
  rhsBatch := []
  wf := dot_S6400x128_S128x3_S6400x3_1_0_0_1_n_n_wf

abbrev win0_0 : Pipeline.Window sig grid0 :=
  Pipeline.Window.ofSpec (Memref.whole main_v25) S6400x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S35x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S128x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34_0) S6400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v34_1) S6400x3.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x15 : Shape := ⟨2, ![50000, 15]⟩
abbrev S800000 : Shape := ⟨1, ![800000]⟩
abbrev S800000x15 : Shape := ⟨2, ![800000, 15]⟩
abbrev S800000x32 : Shape := ⟨2, ![800000, 32]⟩
abbrev S800000x1 : Shape := ⟨2, ![800000, 1]⟩
abbrev S35x128 : Shape := ⟨2, ![35, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S800000x3 : Shape := ⟨2, ![800000, 3]⟩
abbrev S800000x5 : Shape := ⟨2, ![800000, 5]⟩
abbrev S800000x7 : Shape := ⟨2, ![800000, 7]⟩
abbrev S800000x35 : Shape := ⟨2, ![800000, 35]⟩
abbrev S800000x128 : Shape := ⟨2, ![800000, 128]⟩
abbrev S1x128 : Shape := ⟨2, ![1, 128]⟩
abbrev S1x3 : Shape := ⟨2, ![1, 3]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x15, .f32⟩
  | .hbm, ⟨2, _⟩ => ⟨S800000, .i32⟩
  | .hbm, ⟨3, _⟩ => ⟨S800000, .i32⟩
  | .hbm, ⟨4, _⟩ => ⟨S800000x15, .f32⟩
  | .hbm, ⟨5, _⟩ => ⟨S800000x32, .f32⟩
  | .hbm, ⟨6, _⟩ => ⟨S800000x1, .f32⟩
  | .hbm, ⟨7, _⟩ => ⟨S35x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S35x128, .f32⟩
  | .hbm, ⟨12, _⟩ => ⟨S128, .f32⟩
  | .hbm, ⟨13, _⟩ => ⟨S128x3, .f32⟩
  | .hbm, ⟨14, _⟩ => ⟨S3, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x15, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x15, .f32⟩
  | .hbm, ⟨33, _⟩ => ⟨S800000x15, .f32⟩
  | .hbm, ⟨34, _⟩ => ⟨S800000x3, .f32⟩
  | .hbm, ⟨35, _⟩ => ⟨S800000x3, .f32⟩
  | .hbm, ⟨36, _⟩ => ⟨S800000x3, .f32⟩
  | .hbm, ⟨37, _⟩ => ⟨S_, .f32⟩
  | .hbm, ⟨38, _⟩ => ⟨S800000, .f32⟩
  | .hbm, ⟨39, _⟩ => ⟨S800000x1, .f32⟩
  | .hbm, ⟨40, _⟩ => ⟨S800000x5, .f32⟩
  | .hbm, ⟨41, _⟩ => ⟨S800000x5, .f32⟩
  | .hbm, ⟨42, _⟩ => ⟨S800000x5, .f32⟩
  | .hbm, ⟨43, _⟩ => ⟨S_, .f32⟩
  | .hbm, ⟨44, _⟩ => ⟨S800000, .f32⟩
  | .hbm, ⟨45, _⟩ => ⟨S800000x1, .f32⟩
  | .hbm, ⟨46, _⟩ => ⟨S800000x7, .f32⟩
  | .hbm, ⟨47, _⟩ => ⟨S800000x7, .f32⟩
  | .hbm, ⟨48, _⟩ => ⟨S800000x7, .f32⟩
  | .hbm, ⟨49, _⟩ => ⟨S_, .f32⟩
  | .hbm, ⟨50, _⟩ => ⟨S800000, .f32⟩
  | .hbm, ⟨51, _⟩ => ⟨S800000x1, .f32⟩
  | .hbm, ⟨52, _⟩ => ⟨S800000x3, .f32⟩
  | .hbm, ⟨53, _⟩ => ⟨S800000x35, .f32⟩
  | .hbm, ⟨54, _⟩ => ⟨S800000x128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S1x128, .f32⟩
  | .hbm, ⟨69, _⟩ => ⟨S800000x128, .f32⟩
  | .hbm, ⟨70, _⟩ => ⟨S800000x128, .f32⟩
  | .hbm, ⟨71, _⟩ => ⟨S800000x35, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S800000x128, .f32⟩
  | .hbm, ⟨83, _⟩ => ⟨S800000x128, .f32⟩
  | .hbm, ⟨84, _⟩ => ⟨S800000x128, .f32⟩
  | .hbm, ⟨85, _⟩ => ⟨S800000x3, .f32⟩
  | .hbm, ⟨86, _⟩ => ⟨S1x3, .f32⟩
  | .hbm, ⟨87, _⟩ => ⟨S800000x3, .f32⟩
  | .hbm, ⟨88, _⟩ => ⟨S800000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x15_S800000x3_0_0 : S800000x15.Slices ![0, 0] S800000x3
  reducesTo_S800000x3_S800000_d1 : S800000x3.ReducesTo [1] S800000
  h_S_ : 0 < S_.numel
  slices_S800000x15_S800000x5_0_3 : S800000x15.Slices ![0, 3] S800000x5
  reducesTo_S800000x5_S800000_d1 : S800000x5.ReducesTo [1] S800000
  slices_S800000x15_S800000x7_0_8 : S800000x15.Slices ![0, 8] S800000x7
  reducesTo_S800000x7_S800000_d1 : S800000x7.ReducesTo [1] S800000
  concatenates_S800000x1_S800000x1_S800000x1_S800000x3_d1 : Shape.Concatenates [S800000x1, S800000x1, S800000x1] S800000x3 1
  concatenates_S800000x32_S800000x3_S800000x35_d1 : Shape.Concatenates [S800000x32, S800000x3] S800000x35 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S3_S1x3_1 : S3.BroadcastsInDim S1x3 (![1] : Fin 1 → Fin S1x3.rank)
  bcast_S1x3_S800000x3_0_1 : S1x3.BroadcastsInDim S800000x3 (![0, 1] : Fin 2 → Fin S800000x3.rank)
  gather_S50000x15_S800000x1_S800000x15_1_0_n_n_0_1_115_wf : GatherDims.WF S50000x15 S800000x1 S800000x15 [1] [0] [] [0] [] 1 ![1, 15]
  dot_S800000x35_S35x128_S800000x128_1_0_0_1_n_n_wf : DotDims.WF S800000x35 S35x128 S800000x128 [1] [0] [0] [1] [] []
  dot_S800000x128_S128x128_S800000x128_1_0_0_1_n_n_wf : DotDims.WF S800000x128 S128x128 S800000x128 [1] [0] [0] [1] [] []
  dot_S800000x128_S128x3_S800000x3_1_0_0_1_n_n_wf : DotDims.WF S800000x128 S128x3 S800000x3 [1] [0] [0] [1] [] []

variable [Facts₀]

def gather_S50000x15_S800000x1_S800000x15_1_0_n_n_0_1_115 : GatherDims S50000x15 S800000x1 S800000x15 where
  offsetDims := [1]
  collapsedSliceDims := [0]
  operandBatchingDims := []
  startIndicesBatchingDims := []
  startIndexMap := [0]
  indexVectorDim := 1
  sliceSizes := ![1, 15]
  wf := gather_S50000x15_S800000x1_S800000x15_1_0_n_n_0_1_115_wf
def dot_S800000x35_S35x128_S800000x128_1_0_0_1_n_n : DotDims S800000x35 S35x128 S800000x128 where
  lhsContracting := [1]
  rhsContracting := [0]
  lhsNonContracting := [0]
  rhsNonContracting := [1]
  lhsBatch := []
  rhsBatch := []
  wf := dot_S800000x35_S35x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x3_S800000x3_1_0_0_1_n_n : DotDims S800000x128 S128x3 S800000x3 where
  lhsContracting := [1]
  rhsContracting := [0]
  lhsNonContracting := [0]
  rhsNonContracting := [1]
  lhsBatch := []
  rhsBatch := []
  wf := dot_S800000x128_S128x3_S800000x3_1_0_0_1_n_n_wf

class Facts : Prop extends Facts₀ where

variable [Facts]
-- ==== Proof.FrameK.lean ====
import proofs.«117489_j53154515255878_2_alg».proof.Proof.Gen.Kernel.Launch
import proofs.«117489_j53154515255878_2_alg».proof.Proof.Gen.Kernel.Skeleton
import proofs.«117489_j53154515255878_2_alg».proof.Proof.Gen.Kernel.Points
import Idealize.ShloMosaic.Lib.Pipeline.FrameBody
import Idealize.ShloMosaic.Lib.Ring
import Idealize.ShloMosaic.Lib.Tactic

/-!
# The frame of the one-region program

The program is a line of host operations (casts, gathers, reductions, concatenations, reshapes) followed by one
pipelined region over a grid of 125 points. Eight windows are inputs (two of them move along the long axis in
blocks of 6400 rows, six are whole small arrays fetched once), two are outputs written back in blocks of 6400
rows. The frame statement says: the program terminates without fault and every ARGUMENT array holds at the end
what it held at launch.

The argument is in three steps.
* The host operations write only their own result buffers, never an argument: so at the region's entry every
  argument array still has its launch contents (`V_main_argK`).
* At every grid point the body reads each input's staging buffer, which holds that window's block of the array
  as the region found it (`before0_W_of`), and overwrites each output's staging buffer completely with a value
  that is a closed function of the input blocks (`out0_8`, `out0_9`): this is the body's triple (`sound_kernel`).
* The library's launch theorem then gives termination and the contents of every array after the region: an input
  array is unchanged by the region, an array no window names is unchanged; read at the fifteen arguments this is
  the frame statement (`frame_of`, `frame`).
-/

-- membership of an index in a rectangle with a 6400-long axis is checked by structural recursion on the
-- coordinates, one level per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core `c`'s buffers when the region is entered: the launch contents `m` after the host operations, each of
    which replaces the contents of its one result buffer by its function of its operands' contents. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- The program is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0 (each writes its own result buffer, a different reference): the region
    finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1 (each writes its own result buffer, a different reference): the region
    finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2 (each writes its own result buffer, a different reference): the region
    finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 3 (each writes its own result buffer, a different reference): the region
    finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 4 (each writes its own result buffer, a different reference): the region
    finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 5 (each writes its own result buffer, a different reference): the region
    finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 6 (each writes its own result buffer, a different reference): the region
    finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 7 (each writes its own result buffer, a different reference): the region
    finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 8 (each writes its own result buffer, a different reference): the region
    finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 9 (each writes its own result buffer, a different reference): the region
    finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 10 (each writes its own result buffer, a different reference): the region
    finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 11 (each writes its own result buffer, a different reference): the region
    finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 12 (each writes its own result buffer, a different reference): the region
    finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 13 (each writes its own result buffer, a different reference): the region
    finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 14 (each writes its own result buffer, a different reference): the region
    finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`: the rectangle of its array, as the region finds the array (`V`), that
    the window's index map selects at `t` — rows `6400 t … 6400 t + 6399` for the moving windows, the whole array
    for the others. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the block was fetched at
    that point or not (if not, the block index has not moved since the last fetch and the body left the buffer as
    it was) — for any proof data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the block was fetched at
    that point or not (if not, the block index has not moved since the last fetch and the body left the buffer as
    it was) — for any proof data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the block was fetched at
    that point or not (if not, the block index has not moved since the last fetch and the body left the buffer as
    it was) — for any proof data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the block was fetched at
    that point or not (if not, the block index has not moved since the last fetch and the body left the buffer as
    it was) — for any proof data whose array is `V`'s (`hA`) and whose body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the block was fetched at
    that point or not (if not, the block index has not moved since the last fetch and the body left the buffer as
    it was) — for any proof data whose array is `V`'s (`hA`) and whose body leaves the block in place (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the block was fetched at
    that point or not (if not, the block index has not moved since the last fetch and the body left the buffer as
    it was) — for any proof data whose array is `V`'s (`hA`) and whose body leaves the block in place (`hafter`). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the block was fetched at
    that point or not (if not, the block index has not moved since the last fetch and the body left the buffer as
    it was) — for any proof data whose array is `V`'s (`hA`) and whose body leaves the block in place (`hafter`). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the block was fetched at
    that point or not (if not, the block index has not moved since the last fetch and the body left the buffer as
    it was) — for any proof data whose array is `V`'s (`hA`) and whose body leaves the block in place (`hafter`). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame statement from the region's run -/

/-- For any proof data whose arrays are the region-entry contents (`hA`): if the program runs to the library's
    post — every window's array at what the proof data computes, every other unscoped buffer as the region found
    it — then every argument array ends as launched. Argument 5 is window 1's array, an input, which the region
    leaves as it found it; the fourteen others are no window's array; and each was not written before the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats 0 c).arrAt_in 1 rfl _).trans ((hA c 1).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Fr

end
-- ==== Proof.FrameKRun.lean ====
import proofs.«117489_j53154515255878_2_alg».proof.Proof.FrameK

/-!
# The body of the region, the region's run, and the frame

Over the region-entry contents `V` and the windows' blocks `iblk`: what the body leaves in the two output
buffers as a closed function of the input blocks, the body's triple, the proof data of the pipeline, the run of
the whole program and the frame statement.
-/

-- membership of an index in a rectangle with a 6400-long axis is checked by structural recursion on the
-- coordinates, one level per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S6400x3 := Rect.unit (s := S6400x3) ![0, 0] S6400x3.size inb_S6400x3_S6400x3_0_0
abbrev r0_1 : Rect S6400x32 := Rect.unit (s := S6400x32) ![0, 0] S6400x32.size inb_S6400x32_S6400x32_0_0
abbrev r0_2 : Rect S35x256 := Rect.unit (s := S35x256) ![0, 0] S35x256.size inb_S35x256_S35x256_0_0
abbrev r0_3 : Rect S1x256 := Rect.unit (s := S1x256) ![0, 0] S1x256.size inb_S1x256_S1x256_0_0
abbrev r0_4 : Rect S128x128 := Rect.unit (s := S128x128) ![0, 0] S128x128.size inb_S128x128_S128x128_0_0
abbrev r0_5 : Rect S1x128 := Rect.unit (s := S1x128) ![0, 0] S1x128.size inb_S1x128_S1x128_0_0
abbrev r0_6 : Rect S128x3 := Rect.unit (s := S128x3) ![0, 0] S128x3.size inb_S128x3_S128x3_0_0
abbrev r0_7 : Rect S1x3 := Rect.unit (s := S1x3) ![0, 0] S1x3.size inb_S1x3_S1x3_0_0
abbrev r0_8 : Rect S6400x128 := Rect.unit (s := S6400x128) ![0, 0] S6400x128.size inb_S6400x128_S6400x128_0_0
abbrev r0_9 : Rect S6400x3 := Rect.unit (s := S6400x3) ![0, 0] S6400x3.size inb_S6400x3_S6400x3_0_0

/-! ## What the body leaves in each output window's buffer -/

/-- Window 8's staging buffer after the body, from the blocks of input windows 0 to 5: its one store, of the
    whole 6400 x 128 buffer, of the first head's value — the first 128 columns of the activated first layer
    (itself a function of the blocks of windows 0 to 3) times window 4's matrix, plus window 5's row. -/
def out0_8 (x0 : Vec F S6400x3 .f32) (x1 : Vec F S6400x32 .f32) (x2 : Vec F S35x256 .bf16) (x3 : Vec F S1x256 .f32) (x4 : Vec F S128x128 .bf16) (x5 : Vec F S1x128 .f32) : Vec F S6400x128 .f32 :=
  View.canon [⟨r0_8, k0_pay2 (View.ld x0 r0_0) (View.ld x1 r0_1) (View.ld x2 r0_2) (View.ld x3 r0_3) (View.ld x4 r0_4) (View.ld x5 r0_5)⟩]

/-- Window 9's staging buffer after the body, from the blocks of input windows 0 to 3, 6 and 7: its one store, of
    the whole 6400 x 3 buffer, of the second head's value — the last 128 columns of the activated first layer times
    window 6's matrix, plus window 7's row. -/
def out0_9 (x0 : Vec F S6400x3 .f32) (x1 : Vec F S6400x32 .f32) (x2 : Vec F S35x256 .bf16) (x3 : Vec F S1x256 .f32) (x6 : Vec F S128x3 .bf16) (x7 : Vec F S1x3 .f32) : Vec F S6400x3 .f32 :=
  View.canon [⟨r0_9, k0_pay3 (View.ld x0 r0_0) (View.ld x1 r0_1) (View.ld x2 r0_2) (View.ld x3 r0_3) (View.ld x6 r0_6) (View.ld x7 r0_7)⟩]

/-- The one store into window 8's buffer is of the whole buffer: every index is under it. -/
theorem cover0_8 (p0 : Vec F S6400x128 .f32) (y : S6400x128.Idx) :
    ∃ pc ∈ ([⟨r0_8, p0⟩] : List (View.Piece (Elt F) S6400x128 .f32)), y ∈ pc.1.set :=
  View.cover_of_tiled [⟨r0_8, p0⟩] S6400x128.size (by rfl) y

/-- The one store into window 9's buffer is of the whole buffer: every index is under it. -/
theorem cover0_9 (p0 : Vec F S6400x3 .f32) (y : S6400x3.Idx) :
    ∃ pc ∈ ([⟨r0_9, p0⟩] : List (View.Piece (Elt F) S6400x3 .f32)), y ∈ pc.1.set :=
  View.cover_of_tiled [⟨r0_9, p0⟩] S6400x3.size (by rfl) y

/-! ## The body's triple -/

set_option maxHeartbeats 1000000 in
/-- The body on whole staging buffers — the eight inputs' reading `x0 … x7`, the two outputs' holding anything —
    runs without fault to the continuation that holds the inputs' buffers as they were and the outputs' at
    `out0_8`, `out0_9` of the inputs': it loads each input whole, loads each output (a value it never uses) and then
    overwrites it whole with a value computed from the inputs alone. -/
theorem sound_kernel (c : Dev nD) (E : Set ℕ) (i : grid0.Coords) (arg1 : Memref sig .tc .vmem S6400x3 .f32) (harg1 : arg1.IsWhole) (arg2 : Memref sig .tc .vmem S6400x32 .f32) (harg2 : arg2.IsWhole) (arg3 : Memref sig .tc .vmem S35x256 .bf16) (harg3 : arg3.IsWhole) (arg4 : Memref sig .tc .vmem S1x256 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x3 .bf16) (harg7 : arg7.IsWhole) (arg8 : Memref sig .tc .vmem S1x3 .f32) (harg8 : arg8.IsWhole) (arg9 : Memref sig .tc .vmem S6400x128 .f32) (harg9 : arg9.IsWhole) (arg10 : Memref sig .tc .vmem S6400x3 .f32) (harg10 : arg10.IsWhole)
    (x0 : Vec F S6400x3 .f32) (x1 : Vec F S6400x32 .f32) (x2 : Vec F S35x256 .bf16) (x3 : Vec F S1x256 .f32) (x4 : Vec F S128x128 .bf16) (x5 : Vec F S1x128 .f32) (x6 : Vec F S128x3 .bf16) (x7 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5) ∗ owns (c : Thread nD τ) arg10 fullShare (out0_9 x0 x1 x2 x3 x6 x7)) -∗ K ⟨⟩))
      ⊢ wp frame (wpE (defs₀ (F := F)) Variants.none c none) E (cc0__filter_kernel i arg1 harg1 arg2 harg2 arg3 harg3 arg4 harg4 arg5 harg5 arg6 harg6 arg7 harg7 arg8 harg8 arg9 harg9 arg10 harg10) K := by
  simp only [cc0__filter_kernel_eq_skeleton]; unfold cc0__filter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the pipeline on core `c`: the arrays as the region finds them (`V`); after the body at
    point `t` each input's buffer at its block and each output's at `out0_8`, `out0_9` of the input blocks; the
    invariant is the plain one (the buffers no window uses and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t)
    | ⟨9, _⟩ => out0_9 (iblk m c 0 t) (iblk m c 1 t) (iblk m c 2 t) (iblk m c 3 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 0 t) (iblk m c 1 t) (iblk m c 2 t) (iblk m c 3 t) (iblk m c 6 t) (iblk m c 7 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`: the invariant, what the core owes, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks (`before0_W`), so `sound_kernel` applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of the program on the
    TensorCores terminates, and every final state has every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any `F`: the program terminates without fault and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.FrameKI.lean ====
import proofs.«117489_j53154515255878_2_alg».proof.Proof.Gen.KernelIdeal.Launch
import proofs.«117489_j53154515255878_2_alg».proof.Proof.Gen.KernelIdeal.Skeleton
import proofs.«117489_j53154515255878_2_alg».proof.Proof.Gen.KernelIdeal.Points
import Idealize.ShloMosaic.Lib.Pipeline.FrameBody
import Idealize.ShloMosaic.Lib.Ring
import Idealize.ShloMosaic.Lib.Tactic

/-!
# The frame of the one-region program

The program is a line of host operations (casts, gathers, reductions, concatenations, reshapes) followed by one
pipelined region over a grid of 125 points. Eight windows are inputs (two of them move along the long axis in
blocks of 6400 rows, six are whole small arrays fetched once), two are outputs written back in blocks of 6400
rows. The frame statement says: the program terminates without fault and every ARGUMENT array holds at the end
what it held at launch.

The argument is in three steps.
* The host operations write only their own result buffers, never an argument: so at the region's entry every
  argument array still has its launch contents (`V_main_argK`).
* At every grid point the body reads each input's staging buffer, which holds that window's block of the array
  as the region found it (`before0_W_of`), and overwrites each output's staging buffer completely with a value
  that is a closed function of the input blocks (`out0_8`, `out0_9`): this is the body's triple (`sound_kernel`).
* The library's launch theorem then gives termination and the contents of every array after the region: an input
  array is unchanged by the region, an array no window names is unchanged; read at the fifteen arguments this is
  the frame statement (`frame_of`, `frame`).
-/

-- membership of an index in a rectangle with a 6400-long axis is checked by structural recursion on the
-- coordinates, one level per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core `c`'s buffers when the region is entered: the launch contents `m` after the host operations, each of
    which replaces the contents of its one result buffer by its function of its operands' contents. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- The program is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0 (each writes its own result buffer, a different reference): the region
    finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1 (each writes its own result buffer, a different reference): the region
    finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2 (each writes its own result buffer, a different reference): the region
    finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 3 (each writes its own result buffer, a different reference): the region
    finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 4 (each writes its own result buffer, a different reference): the region
    finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 5 (each writes its own result buffer, a different reference): the region
    finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 6 (each writes its own result buffer, a different reference): the region
    finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 7 (each writes its own result buffer, a different reference): the region
    finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 8 (each writes its own result buffer, a different reference): the region
    finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 9 (each writes its own result buffer, a different reference): the region
    finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 10 (each writes its own result buffer, a different reference): the region
    finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 11 (each writes its own result buffer, a different reference): the region
    finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 12 (each writes its own result buffer, a different reference): the region
    finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 13 (each writes its own result buffer, a different reference): the region
    finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 14 (each writes its own result buffer, a different reference): the region
    finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`: the rectangle of its array, as the region finds the array (`V`), that
    the window's index map selects at `t` — rows `6400 t … 6400 t + 6399` for the moving windows, the whole array
    for the others. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the block was fetched at
    that point or not (if not, the block index has not moved since the last fetch and the body left the buffer as
    it was) — for any proof data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the block was fetched at
    that point or not (if not, the block index has not moved since the last fetch and the body left the buffer as
    it was) — for any proof data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the block was fetched at
    that point or not (if not, the block index has not moved since the last fetch and the body left the buffer as
    it was) — for any proof data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the block was fetched at
    that point or not (if not, the block index has not moved since the last fetch and the body left the buffer as
    it was) — for any proof data whose array is `V`'s (`hA`) and whose body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the block was fetched at
    that point or not (if not, the block index has not moved since the last fetch and the body left the buffer as
    it was) — for any proof data whose array is `V`'s (`hA`) and whose body leaves the block in place (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the block was fetched at
    that point or not (if not, the block index has not moved since the last fetch and the body left the buffer as
    it was) — for any proof data whose array is `V`'s (`hA`) and whose body leaves the block in place (`hafter`). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the block was fetched at
    that point or not (if not, the block index has not moved since the last fetch and the body left the buffer as
    it was) — for any proof data whose array is `V`'s (`hA`) and whose body leaves the block in place (`hafter`). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the block was fetched at
    that point or not (if not, the block index has not moved since the last fetch and the body left the buffer as
    it was) — for any proof data whose array is `V`'s (`hA`) and whose body leaves the block in place (`hafter`). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame statement from the region's run -/

/-- For any proof data whose arrays are the region-entry contents (`hA`): if the program runs to the library's
    post — every window's array at what the proof data computes, every other unscoped buffer as the region found
    it — then every argument array ends as launched. Argument 5 is window 1's array, an input, which the region
    leaves as it found it; the fourteen others are no window's array; and each was not written before the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats 0 c).arrAt_in 1 rfl _).trans ((hA c 1).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Fr

end
-- ==== Proof.FrameKIRun.lean ====
import proofs.«117489_j53154515255878_2_alg».proof.Proof.FrameKI

/-!
# The body of the region, the region's run, and the frame

Over the region-entry contents `V` and the windows' blocks `iblk`: what the body leaves in the two output
buffers as a closed function of the input blocks, the body's triple, the proof data of the pipeline, the run of
the whole program and the frame statement.
-/

-- membership of an index in a rectangle with a 6400-long axis is checked by structural recursion on the
-- coordinates, one level per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S6400x3 := Rect.unit (s := S6400x3) ![0, 0] S6400x3.size inb_S6400x3_S6400x3_0_0
abbrev r0_1 : Rect S6400x32 := Rect.unit (s := S6400x32) ![0, 0] S6400x32.size inb_S6400x32_S6400x32_0_0
abbrev r0_2 : Rect S35x256 := Rect.unit (s := S35x256) ![0, 0] S35x256.size inb_S35x256_S35x256_0_0
abbrev r0_3 : Rect S1x256 := Rect.unit (s := S1x256) ![0, 0] S1x256.size inb_S1x256_S1x256_0_0
abbrev r0_4 : Rect S128x128 := Rect.unit (s := S128x128) ![0, 0] S128x128.size inb_S128x128_S128x128_0_0
abbrev r0_5 : Rect S1x128 := Rect.unit (s := S1x128) ![0, 0] S1x128.size inb_S1x128_S1x128_0_0
abbrev r0_6 : Rect S128x3 := Rect.unit (s := S128x3) ![0, 0] S128x3.size inb_S128x3_S128x3_0_0
abbrev r0_7 : Rect S1x3 := Rect.unit (s := S1x3) ![0, 0] S1x3.size inb_S1x3_S1x3_0_0
abbrev r0_8 : Rect S6400x128 := Rect.unit (s := S6400x128) ![0, 0] S6400x128.size inb_S6400x128_S6400x128_0_0
abbrev r0_9 : Rect S6400x3 := Rect.unit (s := S6400x3) ![0, 0] S6400x3.size inb_S6400x3_S6400x3_0_0

/-! ## What the body leaves in each output window's buffer -/

/-- Window 8's staging buffer after the body, from the blocks of input windows 0 to 5: its one store, of the
    whole 6400 x 128 buffer, of the first head's value — the first 128 columns of the activated first layer
    (itself a function of the blocks of windows 0 to 3) times window 4's matrix, plus window 5's row. -/
def out0_8 (x0 : Vec F S6400x3 .f32) (x1 : Vec F S6400x32 .f32) (x2 : Vec F S35x256 .bf16) (x3 : Vec F S1x256 .f32) (x4 : Vec F S128x128 .bf16) (x5 : Vec F S1x128 .f32) : Vec F S6400x128 .f32 :=
  View.canon [⟨r0_8, k0_pay2 (View.ld x0 r0_0) (View.ld x1 r0_1) (View.ld x2 r0_2) (View.ld x3 r0_3) (View.ld x4 r0_4) (View.ld x5 r0_5)⟩]

/-- Window 9's staging buffer after the body, from the blocks of input windows 0 to 3, 6 and 7: its one store, of
    the whole 6400 x 3 buffer, of the second head's value — the last 128 columns of the activated first layer times
    window 6's matrix, plus window 7's row. -/
def out0_9 (x0 : Vec F S6400x3 .f32) (x1 : Vec F S6400x32 .f32) (x2 : Vec F S35x256 .bf16) (x3 : Vec F S1x256 .f32) (x6 : Vec F S128x3 .bf16) (x7 : Vec F S1x3 .f32) : Vec F S6400x3 .f32 :=
  View.canon [⟨r0_9, k0_pay3 (View.ld x0 r0_0) (View.ld x1 r0_1) (View.ld x2 r0_2) (View.ld x3 r0_3) (View.ld x6 r0_6) (View.ld x7 r0_7)⟩]

/-- The one store into window 8's buffer is of the whole buffer: every index is under it. -/
theorem cover0_8 (p0 : Vec F S6400x128 .f32) (y : S6400x128.Idx) :
    ∃ pc ∈ ([⟨r0_8, p0⟩] : List (View.Piece (Elt F) S6400x128 .f32)), y ∈ pc.1.set :=
  View.cover_of_tiled [⟨r0_8, p0⟩] S6400x128.size (by rfl) y

/-- The one store into window 9's buffer is of the whole buffer: every index is under it. -/
theorem cover0_9 (p0 : Vec F S6400x3 .f32) (y : S6400x3.Idx) :
    ∃ pc ∈ ([⟨r0_9, p0⟩] : List (View.Piece (Elt F) S6400x3 .f32)), y ∈ pc.1.set :=
  View.cover_of_tiled [⟨r0_9, p0⟩] S6400x3.size (by rfl) y

/-! ## The body's triple -/

set_option maxHeartbeats 1000000 in
/-- The body on whole staging buffers — the eight inputs' reading `x0 … x7`, the two outputs' holding anything —
    runs without fault to the continuation that holds the inputs' buffers as they were and the outputs' at
    `out0_8`, `out0_9` of the inputs': it loads each input whole, loads each output (a value it never uses) and then
    overwrites it whole with a value computed from the inputs alone. -/
theorem sound_kernel (c : Dev nD) (E : Set ℕ) (i : grid0.Coords) (arg1 : Memref sig .tc .vmem S6400x3 .f32) (harg1 : arg1.IsWhole) (arg2 : Memref sig .tc .vmem S6400x32 .f32) (harg2 : arg2.IsWhole) (arg3 : Memref sig .tc .vmem S35x256 .bf16) (harg3 : arg3.IsWhole) (arg4 : Memref sig .tc .vmem S1x256 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x3 .bf16) (harg7 : arg7.IsWhole) (arg8 : Memref sig .tc .vmem S1x3 .f32) (harg8 : arg8.IsWhole) (arg9 : Memref sig .tc .vmem S6400x128 .f32) (harg9 : arg9.IsWhole) (arg10 : Memref sig .tc .vmem S6400x3 .f32) (harg10 : arg10.IsWhole)
    (x0 : Vec F S6400x3 .f32) (x1 : Vec F S6400x32 .f32) (x2 : Vec F S35x256 .bf16) (x3 : Vec F S1x256 .f32) (x4 : Vec F S128x128 .bf16) (x5 : Vec F S1x128 .f32) (x6 : Vec F S128x3 .bf16) (x7 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5) ∗ owns (c : Thread nD τ) arg10 fullShare (out0_9 x0 x1 x2 x3 x6 x7)) -∗ K ⟨⟩))
      ⊢ wp frame (wpE (defs₀ (F := F)) Variants.none c none) E (cc0__filter_kernel i arg1 harg1 arg2 harg2 arg3 harg3 arg4 harg4 arg5 harg5 arg6 harg6 arg7 harg7 arg8 harg8 arg9 harg9 arg10 harg10) K := by
  simp only [cc0__filter_kernel_eq_skeleton]; unfold cc0__filter_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the pipeline on core `c`: the arrays as the region finds them (`V`); after the body at
    point `t` each input's buffer at its block and each output's at `out0_8`, `out0_9` of the input blocks; the
    invariant is the plain one (the buffers no window uses and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t)
    | ⟨9, _⟩ => out0_9 (iblk m c 0 t) (iblk m c 1 t) (iblk m c 2 t) (iblk m c 3 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 0 t) (iblk m c 1 t) (iblk m c 2 t) (iblk m c 3 t) (iblk m c 6 t) (iblk m c 7 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`: the invariant, what the core owes, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks (`before0_W`), so `sound_kernel` applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of the program on the
    TensorCores terminates, and every final state has every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any `F`: the program terminates without fault and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.Spec.lean ====
/-
  The mathematics both programs compute, stated once over plain functions on finite index types.

  An edge carries 35 features: 32 radial-basis values followed by 3 rotation invariants.  A filter network
  maps them through one hidden layer of width 128 with the gated activation  x ↦ x · σ(x)  (σ the logistic
  function) and a linear output layer of width n:

      net x W₁ b₁ W₂ b₂ f  =  (∑ₖ silu((∑ⱼ xⱼ · W₁ⱼₖ) + b₁ₖ) · W₂ₖ_f) + b₂_f .

  Everything is on the extended reals, so no law beyond the definitions is used: the two programs differ only
  in how they lay the operands out (tiling of the edge axis, the two first layers fused side by side, the
  invariants' squares taken before or after slicing), never in the order of an arithmetic operation that
  could matter at an infinity.
-/
import Idealize.ShloMosaic.PureOps.Ideal
import Idealize.ShloMosaic.Lib.ValueIdx

noncomputable section

open scoped BigOperators

namespace Cert.Filter

open Idealize.ShloMosaic Idealize.ShloMosaic.ValueIdx

/-- The gated activation x · σ(x) on the extended reals, σ(x) = 1 / (1 + e⁻ˣ) with σ(-∞) = 0, σ(+∞) = 1. -/
def silu (x : EReal) : EReal := x * Ideal.logistic x

/-- An edge's 35 features: the 32 radial-basis values, then the 3 invariants. -/
def feat (L : Fin 32 → EReal) (I : Fin 3 → EReal) (j : Fin 35) : EReal :=
  if h : j.val < 32 then L ⟨j.val, h⟩ else I ⟨j.val - 32, by have := j.isLt; omega⟩

/-- One hidden unit: the gated activation of an affine form of the features. -/
def hid (x : Fin 35 → EReal) (W1 : Fin 35 → Fin 128 → EReal) (b1 : Fin 128 → EReal) (k : Fin 128) : EReal :=
  silu ((∑ j : Fin 35, x j * W1 j k) + b1 k)

/-- The two-layer filter network at output unit `f`. -/
def net {n : Nat} (x : Fin 35 → EReal) (W1 : Fin 35 → Fin 128 → EReal) (b1 : Fin 128 → EReal)
    (W2 : Fin 128 → Fin n → EReal) (b2 : Fin n → EReal) (f : Fin n) : EReal :=
  (∑ k : Fin 128, hid x W1 b1 k * W2 k f) + b2 f

/-- The network applied to every edge of the arrays: radial basis `len` [800000, 32], invariants `inv` [800000, 3],
    weights and biases as arrays; the result as an array [800000, n]. -/
def filter {n : Nat} (len : (⟨2, ![800000, 32]⟩ : Shape).Idx → EReal) (inv : (⟨2, ![800000, 3]⟩ : Shape).Idx → EReal)
    (W1 : (⟨2, ![35, 128]⟩ : Shape).Idx → EReal) (b1 : (⟨1, ![128]⟩ : Shape).Idx → EReal)
    (W2 : (⟨2, ![128, n]⟩ : Shape).Idx → EReal) (b2 : (⟨1, ![n]⟩ : Shape).Idx → EReal) :
    (⟨2, ![800000, n]⟩ : Shape).Idx → EReal := fun i =>
  net (feat (fun j => len (ix2 (i 0) j)) (fun j => inv (ix2 (i 0) j))) (fun j k => W1 (ix2 j k)) (fun k => b1 (ix1 k))
    (fun k f => W2 (ix2 k f)) (fun f => b2 (ix1 f)) (i 1)

theorem filter_apply {n : Nat} (len : (⟨2, ![800000, 32]⟩ : Shape).Idx → EReal) (inv : (⟨2, ![800000, 3]⟩ : Shape).Idx → EReal)
    (W1 : (⟨2, ![35, 128]⟩ : Shape).Idx → EReal) (b1 : (⟨1, ![128]⟩ : Shape).Idx → EReal)
    (W2 : (⟨2, ![128, n]⟩ : Shape).Idx → EReal) (b2 : (⟨1, ![n]⟩ : Shape).Idx → EReal) (e : Fin 800000) (f : Fin n) :
    filter len inv W1 b1 W2 b2 (ix2 e f)
      = net (feat (fun j => len (ix2 e j)) (fun j => inv (ix2 e j))) (fun j k => W1 (ix2 j k)) (fun k => b1 (ix1 k))
          (fun k f => W2 (ix2 k f)) (fun f => b2 (ix1 f)) f := rfl

end Cert.Filter

end
-- ==== Proof.Payload.lean ====
/-
  What the kernel body computes for one block of 6400 edges, element by element.

  The body concatenates the block's 32 radial-basis columns with its 3 invariant columns, multiplies the
  [6400, 35] result by the fused first-layer weights [35, 256] (the two networks' first layers side by side),
  adds the fused bias row, applies x ↦ x · σ(x), and then each half of the 256 hidden columns goes through its
  own second layer.  Read at row r and output column f, each stored value is the specification's `net` of
  row r's features, with the first-layer weights and bias taken from the lower (columns 0‥127) or the upper
  (columns 128‥255) half of the fused operands.
-/
import proofs.«117489_j53154515255878_2_alg».proof.Proof.Gen.KernelIdeal.Skeleton
import proofs.«117489_j53154515255878_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Filter

/-- Column k of the lower half of the 256 fused hidden columns. -/
abbrev lo (k : Fin 128) : Fin 256 := ⟨k.val, by have := k.isLt; omega⟩
/-- Column k of the upper half of the 256 fused hidden columns. -/
abbrev hi (k : Fin 128) : Fin 256 := ⟨128 + k.val, by have := k.isLt; omega⟩

/-- A matrix product into a zero accumulator, read at an output index, is the sum over the one contracted
    axis of the products of the operands at the indices the dimension numbers name. -/
theorem dot_apply {sl sr so : Shape} {φ₁ φ₂ : FTy} (D : DotDims sl sr so) (K : Nat) (hr : D.contr.rank = 1)
    (hs : D.contr.size ⟨0, by omega⟩ = K) (lhs : FVec Ideal sl φ₁) (rhs : FVec Ideal sr φ₂) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D none lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

theorem dot1_l0 (i : S6400x256.Idx) (q : dot_S6400x35_S35x256_S6400x256_1_0_0_1_n_n.contr.Idx) : (dot_S6400x35_S35x256_S6400x256_1_0_0_1_n_n.lhsIdx i q 0).val = (i 0).val := by
  unfold DotDims.lhsIdx
  rw [dif_neg (show ¬(0 : Fin S6400x35.rank) ∈ dot_S6400x35_S35x256_S6400x256_1_0_0_1_n_n.lhsBatch by decide), dif_pos (show (0 : Fin S6400x35.rank) ∈ dot_S6400x35_S35x256_S6400x256_1_0_0_1_n_n.lhsNonContracting by decide)]
  rfl
theorem dot1_r1 (i : S6400x256.Idx) (q : dot_S6400x35_S35x256_S6400x256_1_0_0_1_n_n.contr.Idx) : (dot_S6400x35_S35x256_S6400x256_1_0_0_1_n_n.rhsIdx i q 1).val = (i 1).val := by
  unfold DotDims.rhsIdx
  rw [dif_neg (show ¬(1 : Fin S35x256.rank) ∈ dot_S6400x35_S35x256_S6400x256_1_0_0_1_n_n.rhsBatch by decide), dif_pos (show (1 : Fin S35x256.rank) ∈ dot_S6400x35_S35x256_S6400x256_1_0_0_1_n_n.rhsNonContracting by decide)]
  rfl
/-- The first product: rows of the [6400, 35] features against columns of the [35, 256] fused weights. -/
theorem dot1_apply (x : FVec Ideal S6400x35 .bf16) (w : FVec Ideal S35x256 .bf16) (r : Fin 6400) (f : Fin 256) :
    FloatOps.matmul dot_S6400x35_S35x256_S6400x256_1_0_0_1_n_n none x w (constant S6400x256 .f32 0x00000000#32) (ix2 r f)
      = ∑ k : Fin 35, x (ix2 r k) * w (ix2 k f) := by
  refine dot_apply dot_S6400x35_S35x256_S6400x256_1_0_0_1_n_n 35 rfl rfl x w (ix2 r f) (fun k => ix2 r k) (fun k => ix2 k f) ?_ ?_
  · intro k
    have hk := contrEquiv1_symm_val dot_S6400x35_S35x256_S6400x256_1_0_0_1_n_n 35 rfl rfl k
    exact funext fun a => Fin.ext (by
      match a with
      | ⟨0, _⟩ => exact dot1_l0 _ _
      | ⟨1, _⟩ => exact (dot_S6400x35_S35x256_S6400x256_1_0_0_1_n_n.lhsIdx_val_of_single rfl _ _).trans hk)
  · intro k
    have hk := contrEquiv1_symm_val dot_S6400x35_S35x256_S6400x256_1_0_0_1_n_n 35 rfl rfl k
    exact funext fun a => Fin.ext (by
      match a with
      | ⟨0, _⟩ => exact (dot_S6400x35_S35x256_S6400x256_1_0_0_1_n_n.rhsIdx_val_of_single rfl _ _).trans hk
      | ⟨1, _⟩ => exact dot1_r1 _ _)

theorem dot2_l0 (i : S6400x128.Idx) (q : dot_S6400x128_S128x128_S6400x128_1_0_0_1_n_n.contr.Idx) : (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem dot2_r1 (i : S6400x128.Idx) (q : dot_S6400x128_S128x128_S6400x128_1_0_0_1_n_n.contr.Idx) : (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl
/-- The first network's second product: [6400, 128] hidden values against [128, 128] weights. -/
theorem dot2_apply (x : FVec Ideal S6400x128 .bf16) (w : FVec Ideal S128x128 .bf16) (r : Fin 6400) (f : Fin 128) :
    FloatOps.matmul dot_S6400x128_S128x128_S6400x128_1_0_0_1_n_n none x w (constant S6400x128 .f32 0x00000000#32) (ix2 r f)
      = ∑ k : Fin 128, x (ix2 r k) * w (ix2 k f) := by
  refine dot_apply dot_S6400x128_S128x128_S6400x128_1_0_0_1_n_n 128 rfl rfl x w (ix2 r f) (fun k => ix2 r k) (fun k => ix2 k f) ?_ ?_
  · intro k
    have hk := contrEquiv1_symm_val dot_S6400x128_S128x128_S6400x128_1_0_0_1_n_n 128 rfl rfl k
    exact funext fun a => Fin.ext (by
      match a with
      | ⟨0, _⟩ => exact dot2_l0 _ _
      | ⟨1, _⟩ => exact (dot_S6400x128_S128x128_S6400x128_1_0_0_1_n_n.lhsIdx_val_of_single rfl _ _).trans hk)
  · intro k
    have hk := contrEquiv1_symm_val dot_S6400x128_S128x128_S6400x128_1_0_0_1_n_n 128 rfl rfl k
    exact funext fun a => Fin.ext (by
      match a with
      | ⟨0, _⟩ => exact (dot_S6400x128_S128x128_S6400x128_1_0_0_1_n_n.rhsIdx_val_of_single rfl _ _).trans hk
      | ⟨1, _⟩ => exact dot2_r1 _ _)

theorem dot3_l0 (i : S6400x3.Idx) (q : dot_S6400x128_S128x3_S6400x3_1_0_0_1_n_n.contr.Idx) : (dot_S6400x128_S128x3_S6400x3_1_0_0_1_n_n.lhsIdx i q 0).val = (i 0).val := by
  unfold DotDims.lhsIdx
  rw [dif_neg (show ¬(0 : Fin S6400x128.rank) ∈ dot_S6400x128_S128x3_S6400x3_1_0_0_1_n_n.lhsBatch by decide), dif_pos (show (0 : Fin S6400x128.rank) ∈ dot_S6400x128_S128x3_S6400x3_1_0_0_1_n_n.lhsNonContracting by decide)]
  rfl
theorem dot3_r1 (i : S6400x3.Idx) (q : dot_S6400x128_S128x3_S6400x3_1_0_0_1_n_n.contr.Idx) : (dot_S6400x128_S128x3_S6400x3_1_0_0_1_n_n.rhsIdx i q 1).val = (i 1).val := by
  unfold DotDims.rhsIdx
  rw [dif_neg (show ¬(1 : Fin S128x3.rank) ∈ dot_S6400x128_S128x3_S6400x3_1_0_0_1_n_n.rhsBatch by decide), dif_pos (show (1 : Fin S128x3.rank) ∈ dot_S6400x128_S128x3_S6400x3_1_0_0_1_n_n.rhsNonContracting by decide)]
  rfl
/-- The second network's second product: [6400, 128] hidden values against [128, 3] weights. -/
theorem dot3_apply (x : FVec Ideal S6400x128 .bf16) (w : FVec Ideal S128x3 .bf16) (r : Fin 6400) (f : Fin 3) :
    FloatOps.matmul dot_S6400x128_S128x3_S6400x3_1_0_0_1_n_n none x w (constant S6400x3 .f32 0x00000000#32) (ix2 r f)
      = ∑ k : Fin 128, x (ix2 r k) * w (ix2 k f) := by
  refine dot_apply dot_S6400x128_S128x3_S6400x3_1_0_0_1_n_n 128 rfl rfl x w (ix2 r f) (fun k => ix2 r k) (fun k => ix2 k f) ?_ ?_
  · intro k
    have hk := contrEquiv1_symm_val dot_S6400x128_S128x3_S6400x3_1_0_0_1_n_n 128 rfl rfl k
    exact funext fun a => Fin.ext (by
      match a with
      | ⟨0, _⟩ => exact dot3_l0 _ _
      | ⟨1, _⟩ => exact (dot_S6400x128_S128x3_S6400x3_1_0_0_1_n_n.lhsIdx_val_of_single rfl _ _).trans hk)
  · intro k
    have hk := contrEquiv1_symm_val dot_S6400x128_S128x3_S6400x3_1_0_0_1_n_n 128 rfl rfl k
    exact funext fun a => Fin.ext (by
      match a with
      | ⟨0, _⟩ => exact (dot_S6400x128_S128x3_S6400x3_1_0_0_1_n_n.rhsIdx_val_of_single rfl _ _).trans hk
      | ⟨1, _⟩ => exact dot3_r1 _ _)

/-- The block's features: column j of row r of the radial-basis block joined with the invariants block is the
    specification's feature j of that row. -/
theorem cat_apply (v2 : S6400x32.Idx → EReal) (v0 : S6400x3.Idx → EReal) (r : Fin 6400) (j : Fin 35) :
    concatenate S6400x35 1 [⟨S6400x32, v2⟩, ⟨S6400x3, v0⟩] concatenates_S6400x32_S6400x3_S6400x35_d1 (ix2 r j)
      = feat (fun j => v2 (ix2 r j)) (fun j => v0 (ix2 r j)) j := by
  unfold feat
  split
  · next h =>
    refine concatenate_pair_apply_left (t := S6400x35) (s₁ := S6400x32) (s₂ := S6400x3) (1 : Fin 2) v2 v0 _ (ix2 r j) rfl (ix2 r ⟨j.val, h⟩) ?_
    intro b
    match b with
    | ⟨0, _⟩ => rfl
    | ⟨1, _⟩ => rfl
  · next h =>
    refine concatenate_pair_apply_right (t := S6400x35) (s₁ := S6400x32) (s₂ := S6400x3) (1 : Fin 2) v2 v0 _ (ix2 r j) rfl rfl
      (ix2 r ⟨j.val - 32, by have := j.isLt; omega⟩) ?_ ?_
    · intro b hb
      match b with
      | ⟨0, _⟩ => rfl
      | ⟨1, _⟩ => exact absurd rfl hb
    · show j.val - 32 + 32 = j.val
      omega

/-- The hidden layer of the block: at row r and fused column c, the gated activation of the affine form of row
    r's features with the fused weights' column c and the fused bias at c. -/
theorem pay1_apply (v0 : Vec Ideal S6400x3 .f32) (v2 : Vec Ideal S6400x32 .f32) (v5 : Vec Ideal S35x256 .bf16)
    (v8 : Vec Ideal S1x256 .f32) (r : Fin 6400) (c : Fin 256) :
    k0_pay1 v0 v2 v5 v8 (ix2 r c)
      = silu ((∑ j : Fin 35, feat (fun j => v2 (ix2 r j)) (fun j => v0 (ix2 r j)) j * v5 (ix2 j c)) + v8 (ix2 (0 : Fin 1) c)) := by
  unfold k0_pay1
  simp only [shapeCast_self]
  have key : ∀ (h : FVec Ideal S6400x256 .f32) (i : S6400x256.Idx),
      (truncf .bf16 (mulf h (logistic h)) bitsLt_bf16_f32 : FVec Ideal S6400x256 .bf16) i = silu (h i) := fun _ _ => rfl
  refine (key _ _).trans (congrArg silu ?_)
  rw [addf_apply]
  refine congrArg₂ (· + ·) ?_ ?_
  · refine (dot1_apply _ _ r c).trans (Finset.sum_congr rfl fun j _ => ?_)
    rw [truncf_apply, cat_apply, shapeCast_self]
  · exact broadcastTo_apply v8 _ (ix2 r c) (ix2 (0 : Fin 1) c) (fun a => by
      match a with
      | ⟨0, _⟩ => rfl
      | ⟨1, _⟩ => rfl)

/-- The first network's stored block: at row r and column f, the specification's network of row r's features
    with the first layer read from the LOWER half of the fused operands. -/
theorem pay2_apply (v0 : Vec Ideal S6400x3 .f32) (v2 : Vec Ideal S6400x32 .f32) (v5 : Vec Ideal S35x256 .bf16)
    (v8 : Vec Ideal S1x256 .f32) (v17 : Vec Ideal S128x128 .bf16) (v20 : Vec Ideal S1x128 .f32) (r : Fin 6400) (f : Fin 128) :
    k0_pay2 v0 v2 v5 v8 v17 v20 (ix2 r f)
      = net (feat (fun j => v2 (ix2 r j)) (fun j => v0 (ix2 r j))) (fun j k => v5 (ix2 j (lo k)))
          (fun k => v8 (ix2 (0 : Fin 1) (lo k))) (fun k f => v17 (ix2 k f)) (fun f => v20 (ix2 (0 : Fin 1) f)) f := by
  unfold k0_pay2 net hid
  simp only [shapeCast_self]
  rw [addf_apply]
  refine congrArg₂ (· + ·) ?_ ?_
  · refine (dot2_apply _ _ r f).trans (Finset.sum_congr rfl fun k _ => ?_)
    refine congrArg (· * v17 (ix2 k f)) ?_
    refine (extractStridedSlice_apply _ _ _ (ix2 r k) (ix2 r (lo k)) (fun a => by
      match a with
      | ⟨0, _⟩ => exact (Nat.zero_add _).symm
      | ⟨1, _⟩ => exact (Nat.zero_add _).symm)).trans ?_
    exact pay1_apply v0 v2 v5 v8 r (lo k)
  · exact broadcastTo_apply v20 _ (ix2 r f) (ix2 (0 : Fin 1) f) (fun a => by
      match a with
      | ⟨0, _⟩ => rfl
      | ⟨1, _⟩ => rfl)

/-- The second network's stored block: at row r and column f, the specification's network of row r's features
    with the first layer read from the UPPER half of the fused operands. -/
theorem pay3_apply (v0 : Vec Ideal S6400x3 .f32) (v2 : Vec Ideal S6400x32 .f32) (v5 : Vec Ideal S35x256 .bf16)
    (v8 : Vec Ideal S1x256 .f32) (v25 : Vec Ideal S128x3 .bf16) (v28 : Vec Ideal S1x3 .f32) (r : Fin 6400) (f : Fin 3) :
    k0_pay3 v0 v2 v5 v8 v25 v28 (ix2 r f)
      = net (feat (fun j => v2 (ix2 r j)) (fun j => v0 (ix2 r j))) (fun j k => v5 (ix2 j (hi k)))
          (fun k => v8 (ix2 (0 : Fin 1) (hi k))) (fun k f => v25 (ix2 k f)) (fun f => v28 (ix2 (0 : Fin 1) f)) f := by
  unfold k0_pay3 net hid
  simp only [shapeCast_self]
  rw [addf_apply]
  refine congrArg₂ (· + ·) ?_ ?_
  · refine (dot3_apply _ _ r f).trans (Finset.sum_congr rfl fun k _ => ?_)
    refine congrArg (· * v25 (ix2 k f)) ?_
    refine (extractStridedSlice_apply _ _ _ (ix2 r k) (ix2 r (hi k)) (fun a => by
      match a with
      | ⟨0, _⟩ => exact (Nat.zero_add _).symm
      | ⟨1, _⟩ => rfl)).trans ?_
    exact pay1_apply v0 v2 v5 v8 r (hi k)
  · exact broadcastTo_apply v28 _ (ix2 r f) (ix2 (0 : Fin 1) f) (fun a => by
      match a with
      | ⟨0, _⟩ => rfl
      | ⟨1, _⟩ => rfl)

end Cert.KernelIdeal.Pay

end
-- ==== Proof.HostReads.lean ====
/-
  What the host operations before the region leave in the small operands of the kernel: the fused first-layer
  weights (the two weight matrices side by side, columns 0‥127 and 128‥255), the fused first-layer bias (the two bias
  vectors end to end, as one row), and the second-layer weights and biases (unchanged up to a change of float format,
  which is the identity on the extended reals, and a leading axis of extent one).
-/
import proofs.«117489_j53154515255878_2_alg».proof.Proof.Gen.KernelIdeal.Launch
import proofs.«117489_j53154515255878_2_alg».proof.Proof.Payload
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Cert.KernelIdeal.Pay
open Idealize.ShloMosaic Idealize.ShloMosaic.TcCoe Idealize.ShloMosaic.ValueIdx Idealize.SL.Sem Idealize.ShloMosaic.StableHlo

/-! ## The operands as closed terms of the launch contents -/

section Closed
variable (W : Valuation τ sig (Elt Ideal))

/-- The fused first-layer weights: the two weight matrices joined along the column axis. -/
theorem after_w1cat :
    @Eq (FVec Ideal S35x256 .bf16) (StableHlo.after (hostOps0 (F := Ideal)) W (Proc.devRef .tc main_v31))
      (truncf (F := Ideal) .bf16 (concatenate S35x256 1 [⟨S35x128, (W (Proc.devRef .tc main_arg7) : FVec Ideal S35x128 .f32)⟩, ⟨S35x128, (W (Proc.devRef .tc main_arg11) : FVec Ideal S35x128 .f32)⟩] concatenates_S35x128_S35x128_S35x256_d1) bitsLt_bf16_f32) := by
  after_results_simp
  rfl

/-- The fused first-layer bias: the two bias vectors joined end to end, as one row. -/
theorem after_b1cat :
    @Eq (FVec Ideal S1x256 .f32) (StableHlo.after (hostOps0 (F := Ideal)) W (Proc.devRef .tc main_v28))
      (shapeCast S1x256 (concatenate S256 0 [⟨S128, (W (Proc.devRef .tc main_arg8) : FVec Ideal S128 .f32)⟩, ⟨S128, (W (Proc.devRef .tc main_arg12) : FVec Ideal S128 .f32)⟩] concatenates_S128_S128_S256_d0) shapeCasts_S256_S1x256) := by
  after_results_simp
  rfl

/-- The first network's second-layer weights. -/
theorem after_w2a :
    @Eq (FVec Ideal S128x128 .bf16) (StableHlo.after (hostOps0 (F := Ideal)) W (Proc.devRef .tc main_v32))
      (truncf (F := Ideal) .bf16 (W (Proc.devRef .tc main_arg9) : FVec Ideal S128x128 .f32) bitsLt_bf16_f32) := by
  after_results_simp

/-- The second network's second-layer weights. -/
theorem after_w2b :
    @Eq (FVec Ideal S128x3 .bf16) (StableHlo.after (hostOps0 (F := Ideal)) W (Proc.devRef .tc main_v33))
      (truncf (F := Ideal) .bf16 (W (Proc.devRef .tc main_arg13) : FVec Ideal S128x3 .f32) bitsLt_bf16_f32) := by
  after_results_simp

/-- The first network's second-layer bias, as one row. -/
theorem after_b2a :
    @Eq (FVec Ideal S1x128 .f32) (StableHlo.after (hostOps0 (F := Ideal)) W (Proc.devRef .tc main_v29))
      (shapeCast S1x128 (W (Proc.devRef .tc main_arg10) : FVec Ideal S128 .f32) shapeCasts_S128_S1x128) := by
  after_results_simp
  rfl

/-- The second network's second-layer bias, as one row. -/
theorem after_b2b :
    @Eq (FVec Ideal S1x3 .f32) (StableHlo.after (hostOps0 (F := Ideal)) W (Proc.devRef .tc main_v30))
      (shapeCast S1x3 (W (Proc.devRef .tc main_arg14) : FVec Ideal S3 .f32) shapeCasts_S3_S1x3) := by
  after_results_simp
  rfl

end Closed

/-! ## The same operands read at an index -/

/-- A vector laid out as one row reads, at column f of its only row, the vector's entry f. -/
theorem row_apply {n : Nat} (a : (⟨1, ![n]⟩ : Shape).Idx → EReal) (h : (⟨1, ![n]⟩ : Shape).ShapeCasts ⟨2, ![1, n]⟩) (f : Fin n) :
    shapeCast ⟨2, ![1, n]⟩ a h (ix2 (0 : Fin 1) f) = a (ix1 f) := by
  refine (shapeCast_addUnit_apply ![n] a h (ix2 (0 : Fin 1) f)).trans (congrArg a ?_)
  funext b
  match b with
  | ⟨0, _⟩ => rfl

/-- The lower half of the fused weights is the first weight matrix. -/
theorem w1cat_lo (A B : FVec Ideal S35x128 .f32) (j : Fin 35) (k : Fin 128) :
    (truncf (F := Ideal) .bf16 (concatenate S35x256 1 [⟨S35x128, A⟩, ⟨S35x128, B⟩] concatenates_S35x128_S35x128_S35x256_d1) bitsLt_bf16_f32 : FVec Ideal S35x256 .bf16) (ix2 j (lo k)) = A (ix2 j k) := by
  rw [truncf_apply]
  exact concatenate_pair_apply_left (t := S35x256) (s₁ := S35x128) (s₂ := S35x128) (1 : Fin 2) A B _ (ix2 j (lo k)) rfl (ix2 j k)
    (fun b => by match b with | ⟨0, _⟩ => rfl | ⟨1, _⟩ => rfl)

/-- The upper half of the fused weights is the second weight matrix. -/
theorem w1cat_hi (A B : FVec Ideal S35x128 .f32) (j : Fin 35) (k : Fin 128) :
    (truncf (F := Ideal) .bf16 (concatenate S35x256 1 [⟨S35x128, A⟩, ⟨S35x128, B⟩] concatenates_S35x128_S35x128_S35x256_d1) bitsLt_bf16_f32 : FVec Ideal S35x256 .bf16) (ix2 j (hi k)) = B (ix2 j k) := by
  rw [truncf_apply]
  exact concatenate_pair_apply_right (t := S35x256) (s₁ := S35x128) (s₂ := S35x128) (1 : Fin 2) A B _ (ix2 j (hi k)) rfl rfl (ix2 j k)
    (fun b hb => by match b with | ⟨0, _⟩ => rfl | ⟨1, _⟩ => exact absurd rfl hb)
    (show k.val + 128 = 128 + k.val by omega)

/-- The lower half of the fused bias row is the first bias vector. -/
theorem b1cat_lo (a b : FVec Ideal S128 .f32) (k : Fin 128) :
    shapeCast S1x256 (concatenate S256 0 [⟨S128, a⟩, ⟨S128, b⟩] concatenates_S128_S128_S256_d0) shapeCasts_S256_S1x256 (ix2 (0 : Fin 1) (lo k)) = a (ix1 k) := by
  refine (row_apply _ shapeCasts_S256_S1x256 (lo k)).trans ?_
  exact concatenate_pair_apply_left (t := S256) (s₁ := S128) (s₂ := S128) (0 : Fin 1) a b _ (ix1 (lo k)) rfl (ix1 k)
    (fun b => by match b with | ⟨0, _⟩ => rfl)

/-- The upper half of the fused bias row is the second bias vector. -/
theorem b1cat_hi (a b : FVec Ideal S128 .f32) (k : Fin 128) :
    shapeCast S1x256 (concatenate S256 0 [⟨S128, a⟩, ⟨S128, b⟩] concatenates_S128_S128_S256_d0) shapeCasts_S256_S1x256 (ix2 (0 : Fin 1) (hi k)) = b (ix1 k) := by
  refine (row_apply _ shapeCasts_S256_S1x256 (hi k)).trans ?_
  exact concatenate_pair_apply_right (t := S256) (s₁ := S128) (s₂ := S128) (0 : Fin 1) a b _ (ix1 (hi k)) rfl rfl (ix1 k)
    (fun b hb => by match b with | ⟨0, _⟩ => exact absurd rfl hb)
    (show k.val + 128 = 128 + k.val by omega)

end Cert.KernelIdeal.Host

end
-- ==== Proof.KernelValue.lean ====
import proofs.«117489_j53154515255878_2_alg».proof.Proof.FrameKIRun
import proofs.«117489_j53154515255878_2_alg».proof.Proof.Payload
import proofs.«117489_j53154515255878_2_alg».proof.Proof.Spec
import proofs.«117489_j53154515255878_2_alg».proof.Proof.HostReads
import Idealize.ShloMosaic.Lib.Pipeline.Value
import Idealize.ShloMosaic.Lib.ValueIdx

/-!
# The two result arrays of the pipelined program, on the extended reals

The region runs over 125 grid points; point `t` reads rows `6400 t … 6400 t + 6399` of the two long inputs (the
radial-basis array and the invariants array) and the six small operands whole, and writes rows
`6400 t … 6400 t + 6399` of the two results. Row `r` of the block point `t` writes is the filter network of row
`6400 t + r` of the inputs, with the first network's parameters for the first result and the second network's for the
second: so block `t` of each result is block `t` of ONE function of the argument arrays (`G8`, `G9`), the 125 blocks
tile the 800000 rows, and each result array ends holding that function.

The small operands reach the region through host operations: the two first-layer weight matrices side by side and
the two first-layer biases end to end (the body reads the lower or the upper half), the second-layer parameters
unchanged up to a float format change, which is the identity on the extended reals, and a leading unit axis. The
invariants array is itself computed before the region; it is kept as the region finds it.
-/

noncomputable section

namespace Cert.KernelIdeal.KVal

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)
open Cert.Filter

variable (m : (ℓ : Loc nD τ sig) → Buf (Elt Ideal) ℓ) (ρ : Dev nD → PrngReg)

/-! ## The results as functions of the arguments -/

/-- The first result: the first filter network on every row of the radial-basis argument and of the invariants array
    as the region finds it. -/
def G8 (c : Dev nD) : S800000x128.Idx → EReal :=
  Cert.Filter.filter (n := 128) (m ((c : Thread nD τ).loc main_arg5)) (V m c main_v25) (m ((c : Thread nD τ).loc main_arg7)) (m ((c : Thread nD τ).loc main_arg8)) (m ((c : Thread nD τ).loc main_arg9)) (m ((c : Thread nD τ).loc main_arg10))

/-- The second result: the second filter network on the same rows. -/
def G9 (c : Dev nD) : S800000x3.Idx → EReal :=
  Cert.Filter.filter (n := 3) (m ((c : Thread nD τ).loc main_arg5)) (V m c main_v25) (m ((c : Thread nD τ).loc main_arg11)) (m ((c : Thread nD τ).loc main_arg12)) (m ((c : Thread nD τ).loc main_arg13)) (m ((c : Thread nD τ).loc main_arg14))

/-! ## What the body leaves is the payload -/

theorem hz : (![0, 0] : Fin 2 → Nat) = fun _ => 0 := funext fun a => by fin_cases a <;> rfl

/-- One store of the whole buffer leaves its payload, and a load of a whole buffer reads its contents. -/
theorem out0_8_eq (x0 : Vec Ideal S6400x3 .f32) (x1 : Vec Ideal S6400x32 .f32) (x2 : Vec Ideal S35x256 .bf16) (x3 : Vec Ideal S1x256 .f32)
    (x4 : Vec Ideal S128x128 .bf16) (x5 : Vec Ideal S1x128 .f32) : out0_8 x0 x1 x2 x3 x4 x5 = k0_pay2 x0 x1 x2 x3 x4 x5 := by
  unfold out0_8
  rw [View.canon_unit_zero hz]
  simp only [View.ld_unit_zero (S := S6400x3) hz, View.ld_unit_zero (S := S6400x32) hz, View.ld_unit_zero (S := S35x256) hz, View.ld_unit_zero (S := S1x256) hz, View.ld_unit_zero (S := S128x128) hz, View.ld_unit_zero (S := S1x128) hz, View.ld_unit_zero (S := S128x3) hz, View.ld_unit_zero (S := S1x3) hz]

theorem out0_9_eq (x0 : Vec Ideal S6400x3 .f32) (x1 : Vec Ideal S6400x32 .f32) (x2 : Vec Ideal S35x256 .bf16) (x3 : Vec Ideal S1x256 .f32)
    (x6 : Vec Ideal S128x3 .bf16) (x7 : Vec Ideal S1x3 .f32) : out0_9 x0 x1 x2 x3 x6 x7 = k0_pay3 x0 x1 x2 x3 x6 x7 := by
  unfold out0_9
  rw [View.canon_unit_zero hz]
  simp only [View.ld_unit_zero (S := S6400x3) hz, View.ld_unit_zero (S := S6400x32) hz, View.ld_unit_zero (S := S35x256) hz, View.ld_unit_zero (S := S1x256) hz, View.ld_unit_zero (S := S128x128) hz, View.ld_unit_zero (S := S1x128) hz, View.ld_unit_zero (S := S128x3) hz, View.ld_unit_zero (S := S1x3) hz]

/-! ## The index maps -/

/-- The moving windows (the two long inputs and the two results) are at block `(t, 0)` at point `t`. -/
theorem idx_move : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The six small operands' windows are at block `(0, 0)` at every point. -/
theorem idx_fixed : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks as rows of the arrays -/

/-- Row `r` of window 0's block at point `t` is row `6400 t + r` of the invariants array. -/
theorem iblk0_apply (c : Dev nD) (t : Fin cfg0.N) (r : Fin 6400) (j : Fin 3) (e : Fin 800000) (he : e.val = t.val * 6400 + r.val) :
    (iblk m c 0 t : Vec Ideal S6400x3 .f32) (ix2 r j) = (V m c main_v25 : S800000x3.Idx → EReal) (ix2 e j) := by
  obtain ⟨h0, h1, -⟩ := idx_move t
  refine congrArg (V m c main_v25 : S800000x3.Idx → EReal) ?_
  funext a; apply Fin.ext
  match a with
  | ⟨0, _⟩ => show win0_0.index t (0 : Fin 2) * 6400 + 1 * r.val = e.val; rw [h0, he]; omega
  | ⟨1, _⟩ => show win0_0.index t (1 : Fin 2) * 3 + 1 * j.val = j.val; rw [h1]; omega

/-- Row `r` of window 1's block at point `t` is row `6400 t + r` of the radial-basis argument. -/
theorem iblk1_apply (c : Dev nD) (t : Fin cfg0.N) (r : Fin 6400) (j : Fin 32) (e : Fin 800000) (he : e.val = t.val * 6400 + r.val) :
    (iblk m c 1 t : Vec Ideal S6400x32 .f32) (ix2 r j) = (m ((c : Thread nD τ).loc main_arg5) : S800000x32.Idx → EReal) (ix2 e j) := by
  obtain ⟨-, -, h0, h1, -⟩ := idx_move t
  refine (congrArg (V m c main_arg5 : S800000x32.Idx → EReal) ?_).trans (congrFun (V_main_arg5 m c) _)
  funext a; apply Fin.ext
  match a with
  | ⟨0, _⟩ => show win0_1.index t (0 : Fin 2) * 6400 + 1 * r.val = e.val; rw [h0, he]; omega
  | ⟨1, _⟩ => show win0_1.index t (1 : Fin 2) * 32 + 1 * j.val = j.val; rw [h1]; omega

/-- The small operands' blocks are the whole arrays as the region finds them. -/
theorem iblk2_eq (c : Dev nD) (t : Fin cfg0.N) : (iblk m c 2 t : Vec Ideal S35x256 .bf16) = (V m c main_v31 : S35x256.Idx → EReal) := by
  obtain ⟨h0, h1, -⟩ := idx_fixed t
  funext y
  refine congrArg (V m c main_v31 : S35x256.Idx → EReal) ?_
  funext a; apply Fin.ext
  match a with
  | ⟨0, _⟩ => show win0_2.index t (0 : Fin 2) * 35 + 1 * (y 0).val = (y 0).val; rw [h0]; omega
  | ⟨1, _⟩ => show win0_2.index t (1 : Fin 2) * 256 + 1 * (y 1).val = (y 1).val; rw [h1]; omega
theorem iblk3_eq (c : Dev nD) (t : Fin cfg0.N) : (iblk m c 3 t : Vec Ideal S1x256 .f32) = (V m c main_v28 : S1x256.Idx → EReal) := by
  obtain ⟨-, -, h0, h1, -⟩ := idx_fixed t
  funext y
  refine congrArg (V m c main_v28 : S1x256.Idx → EReal) ?_
  funext a; apply Fin.ext
  match a with
  | ⟨0, _⟩ => show win0_3.index t (0 : Fin 2) * 1 + 1 * (y 0).val = (y 0).val; rw [h0]; omega
  | ⟨1, _⟩ => show win0_3.index t (1 : Fin 2) * 256 + 1 * (y 1).val = (y 1).val; rw [h1]; omega
theorem iblk4_eq (c : Dev nD) (t : Fin cfg0.N) : (iblk m c 4 t : Vec Ideal S128x128 .bf16) = (V m c main_v32 : S128x128.Idx → EReal) := by
  obtain ⟨-, -, -, -, h0, h1, -⟩ := idx_fixed t
  funext y
  refine congrArg (V m c main_v32 : S128x128.Idx → EReal) ?_
  funext a; apply Fin.ext
  match a with
  | ⟨0, _⟩ => show win0_4.index t (0 : Fin 2) * 128 + 1 * (y 0).val = (y 0).val; rw [h0]; omega
  | ⟨1, _⟩ => show win0_4.index t (1 : Fin 2) * 128 + 1 * (y 1).val = (y 1).val; rw [h1]; omega
theorem iblk5_eq (c : Dev nD) (t : Fin cfg0.N) : (iblk m c 5 t : Vec Ideal S1x128 .f32) = (V m c main_v29 : S1x128.Idx → EReal) := by
  obtain ⟨-, -, -, -, -, -, h0, h1, -⟩ := idx_fixed t
  funext y
  refine congrArg (V m c main_v29 : S1x128.Idx → EReal) ?_
  funext a; apply Fin.ext
  match a with
  | ⟨0, _⟩ => show win0_5.index t (0 : Fin 2) * 1 + 1 * (y 0).val = (y 0).val; rw [h0]; omega
  | ⟨1, _⟩ => show win0_5.index t (1 : Fin 2) * 128 + 1 * (y 1).val = (y 1).val; rw [h1]; omega
theorem iblk6_eq (c : Dev nD) (t : Fin cfg0.N) : (iblk m c 6 t : Vec Ideal S128x3 .bf16) = (V m c main_v33 : S128x3.Idx → EReal) := by
  obtain ⟨-, -, -, -, -, -, -, -, h0, h1, -⟩ := idx_fixed t
  funext y
  refine congrArg (V m c main_v33 : S128x3.Idx → EReal) ?_
  funext a; apply Fin.ext
  match a with
  | ⟨0, _⟩ => show win0_6.index t (0 : Fin 2) * 128 + 1 * (y 0).val = (y 0).val; rw [h0]; omega
  | ⟨1, _⟩ => show win0_6.index t (1 : Fin 2) * 3 + 1 * (y 1).val = (y 1).val; rw [h1]; omega
theorem iblk7_eq (c : Dev nD) (t : Fin cfg0.N) : (iblk m c 7 t : Vec Ideal S1x3 .f32) = (V m c main_v30 : S1x3.Idx → EReal) := by
  obtain ⟨-, -, -, -, -, -, -, -, -, -, h0, h1⟩ := idx_fixed t
  funext y
  refine congrArg (V m c main_v30 : S1x3.Idx → EReal) ?_
  funext a; apply Fin.ext
  match a with
  | ⟨0, _⟩ => show win0_7.index t (0 : Fin 2) * 1 + 1 * (y 0).val = (y 0).val; rw [h0]; omega
  | ⟨1, _⟩ => show win0_7.index t (1 : Fin 2) * 3 + 1 * (y 1).val = (y 1).val; rw [h1]; omega

/-! ## The small operands as the region finds them, at an index -/

/-- The lower half of the fused first-layer weights is the first network's weight argument. -/
theorem v31_lo (c : Dev nD) (j : Fin 35) (k : Fin 128) :
    (V m c main_v31 : S35x256.Idx → EReal) (ix2 j (lo k)) = (m ((c : Thread nD τ).loc main_arg7) : S35x128.Idx → EReal) (ix2 j k) := by
  have e : (V m c main_v31 : FVec Ideal S35x256 .bf16) = _ := Host.after_w1cat (fun b => m (c, b))
  rw [e]
  exact Host.w1cat_lo _ _ j k
/-- The upper half is the second network's. -/
theorem v31_hi (c : Dev nD) (j : Fin 35) (k : Fin 128) :
    (V m c main_v31 : S35x256.Idx → EReal) (ix2 j (hi k)) = (m ((c : Thread nD τ).loc main_arg11) : S35x128.Idx → EReal) (ix2 j k) := by
  have e : (V m c main_v31 : FVec Ideal S35x256 .bf16) = _ := Host.after_w1cat (fun b => m (c, b))
  rw [e]
  exact Host.w1cat_hi _ _ j k
/-- The lower half of the fused first-layer bias row is the first network's bias argument. -/
theorem v28_lo (c : Dev nD) (k : Fin 128) :
    (V m c main_v28 : S1x256.Idx → EReal) (ix2 (0 : Fin 1) (lo k)) = (m ((c : Thread nD τ).loc main_arg8) : S128.Idx → EReal) (ix1 k) := by
  have e : (V m c main_v28 : FVec Ideal S1x256 .f32) = _ := Host.after_b1cat (fun b => m (c, b))
  rw [e]
  exact Host.b1cat_lo _ _ k
/-- The upper half is the second network's. -/
theorem v28_hi (c : Dev nD) (k : Fin 128) :
    (V m c main_v28 : S1x256.Idx → EReal) (ix2 (0 : Fin 1) (hi k)) = (m ((c : Thread nD τ).loc main_arg12) : S128.Idx → EReal) (ix1 k) := by
  have e : (V m c main_v28 : FVec Ideal S1x256 .f32) = _ := Host.after_b1cat (fun b => m (c, b))
  rw [e]
  exact Host.b1cat_hi _ _ k
/-- The first network's second-layer weights are its argument. -/
theorem v32_apply (c : Dev nD) (k : Fin 128) (f : Fin 128) :
    (V m c main_v32 : S128x128.Idx → EReal) (ix2 k f) = (m ((c : Thread nD τ).loc main_arg9) : S128x128.Idx → EReal) (ix2 k f) := by
  have e : (V m c main_v32 : FVec Ideal S128x128 .bf16) = _ := Host.after_w2a (fun b => m (c, b))
  rw [e]
  rfl
/-- The second network's second-layer weights are its argument. -/
theorem v33_apply (c : Dev nD) (k : Fin 128) (f : Fin 3) :
    (V m c main_v33 : S128x3.Idx → EReal) (ix2 k f) = (m ((c : Thread nD τ).loc main_arg13) : S128x3.Idx → EReal) (ix2 k f) := by
  have e : (V m c main_v33 : FVec Ideal S128x3 .bf16) = _ := Host.after_w2b (fun b => m (c, b))
  rw [e]
  rfl
/-- The first network's second-layer bias row is its bias argument. -/
theorem v29_apply (c : Dev nD) (f : Fin 128) :
    (V m c main_v29 : S1x128.Idx → EReal) (ix2 (0 : Fin 1) f) = (m ((c : Thread nD τ).loc main_arg10) : S128.Idx → EReal) (ix1 f) := by
  have e : (V m c main_v29 : FVec Ideal S1x128 .f32) = _ := Host.after_b2a (fun b => m (c, b))
  rw [e]
  exact Host.row_apply _ _ f
/-- The second network's second-layer bias row is its bias argument. -/
theorem v30_apply (c : Dev nD) (f : Fin 3) :
    (V m c main_v30 : S1x3.Idx → EReal) (ix2 (0 : Fin 1) f) = (m ((c : Thread nD τ).loc main_arg14) : S3.Idx → EReal) (ix1 f) := by
  have e : (V m c main_v30 : FVec Ideal S1x3 .f32) = _ := Host.after_b2b (fun b => m (c, b))
  rw [e]
  exact Host.row_apply _ _ f

/-! ## What a point writes back -/

/-- The network depends on its operands only through their values. -/
theorem net_congr {n : Nat} {x x' : Fin 35 → EReal} {W1 W1' : Fin 35 → Fin 128 → EReal} {b1 b1' : Fin 128 → EReal}
    {W2 W2' : Fin 128 → Fin n → EReal} {b2 b2' : Fin n → EReal} (hx : x = x') (hW1 : W1 = W1') (hb1 : b1 = b1')
    (hW2 : W2 = W2') (hb2 : b2 = b2') (f : Fin n) : net x W1 b1 W2 b2 f = net x' W1' b1' W2' b2' f := by
  subst hx hW1 hb1 hW2 hb2; rfl

theorem feat_congr {L L' : Fin 32 → EReal} {I I' : Fin 3 → EReal} (hL : L = L') (hI : I = I') : feat L I = feat L' I' := by
  subst hL hI; rfl

/-- WHAT POINT `t` WRITES BACK to the first result is block `t` of `G8`: row `r` of the stored block is the first
    network of row `6400 t + r` of the inputs. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8, out0_8_eq]
  funext j
  obtain ⟨r, f, rfl⟩ : ∃ (r : Fin 6400) (f : Fin 128), j = ix2 r f := ⟨j 0, j 1, eq_ix2 j⟩
  have hN : grid0.N = 125 := N_0
  have ht : t.val < 125 := lt_of_lt_of_eq (show t.val < grid0.N from t.isLt) hN
  obtain ⟨e, he⟩ : ∃ e : Fin 800000, e.val = t.val * 6400 + r.val := ⟨⟨t.val * 6400 + r.val, by have := r.isLt; omega⟩, rfl⟩
  obtain ⟨-, -, -, -, h0, h1, -⟩ := idx_move t
  have hemb : ((cfg0.win 8).blk t).view.emb (ix2 r f) = (ix2 e f : S800000x128.Idx) := by
    funext a; apply Fin.ext
    match a with
    | ⟨0, _⟩ => show win0_8.index t (0 : Fin 2) * 6400 + 1 * r.val = e.val; rw [h0, he]; omega
    | ⟨1, _⟩ => show win0_8.index t (1 : Fin 2) * 128 + 1 * f.val = f.val; rw [h1]; omega
  show k0_pay2 (iblk m c 0 t) (iblk m c 1 t) (iblk m c 2 t) (iblk m c 3 t) (iblk m c 4 t) (iblk m c 5 t) (ix2 r f)
    = G8 m c (((cfg0.win 8).blk t).view.emb (ix2 r f))
  refine ((pay2_apply _ _ _ _ _ _ r f).trans ?_).trans (congrArg (G8 m c) hemb).symm
  unfold G8
  refine Eq.trans ?_ (filter_apply _ _ _ _ _ _ e f).symm
  refine net_congr (feat_congr (funext fun j => iblk1_apply m c t r j e he) (funext fun j => iblk0_apply m c t r j e he))
    (funext fun j => funext fun k => ?_) (funext fun k => ?_) (funext fun k => funext fun f => ?_) (funext fun f => ?_) f
  · exact (congrFun (iblk2_eq m c t) _).trans (v31_lo m c j k)
  · exact (congrFun (iblk3_eq m c t) _).trans (v28_lo m c k)
  · exact (congrFun (iblk4_eq m c t) _).trans (v32_apply m c k f)
  · exact (congrFun (iblk5_eq m c t) _).trans (v29_apply m c f)

/-- WHAT POINT `t` WRITES BACK to the second result is block `t` of `G9`. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9, out0_9_eq]
  funext j
  obtain ⟨r, f, rfl⟩ : ∃ (r : Fin 6400) (f : Fin 3), j = ix2 r f := ⟨j 0, j 1, eq_ix2 j⟩
  have hN : grid0.N = 125 := N_0
  have ht : t.val < 125 := lt_of_lt_of_eq (show t.val < grid0.N from t.isLt) hN
  obtain ⟨e, he⟩ : ∃ e : Fin 800000, e.val = t.val * 6400 + r.val := ⟨⟨t.val * 6400 + r.val, by have := r.isLt; omega⟩, rfl⟩
  obtain ⟨-, -, -, -, -, -, h0, h1⟩ := idx_move t
  have hemb : ((cfg0.win 9).blk t).view.emb (ix2 r f) = (ix2 e f : S800000x3.Idx) := by
    funext a; apply Fin.ext
    match a with
    | ⟨0, _⟩ => show win0_9.index t (0 : Fin 2) * 6400 + 1 * r.val = e.val; rw [h0, he]; omega
    | ⟨1, _⟩ => show win0_9.index t (1 : Fin 2) * 3 + 1 * f.val = f.val; rw [h1]; omega
  show k0_pay3 (iblk m c 0 t) (iblk m c 1 t) (iblk m c 2 t) (iblk m c 3 t) (iblk m c 6 t) (iblk m c 7 t) (ix2 r f)
    = G9 m c (((cfg0.win 9).blk t).view.emb (ix2 r f))
  refine ((pay3_apply _ _ _ _ _ _ r f).trans ?_).trans (congrArg (G9 m c) hemb).symm
  unfold G9
  refine Eq.trans ?_ (filter_apply _ _ _ _ _ _ e f).symm
  refine net_congr (feat_congr (funext fun j => iblk1_apply m c t r j e he) (funext fun j => iblk0_apply m c t r j e he))
    (funext fun j => funext fun k => ?_) (funext fun k => ?_) (funext fun k => funext fun f => ?_) (funext fun f => ?_) f
  · exact (congrFun (iblk2_eq m c t) _).trans (v31_hi m c j k)
  · exact (congrFun (iblk3_eq m c t) _).trans (v28_hi m c k)
  · exact (congrFun (iblk6_eq m c t) _).trans (v33_apply m c k f)
  · exact (congrFun (iblk7_eq m c t) _).trans (v30_apply m c f)

/-! ## The blocks tile the result arrays -/

/-- An index of the first result is in point `t`'s block iff each coordinate is in the block's range on its axis. -/
theorem mem_blk8 (t : Fin cfg0.N) (i : S800000x128.Idx) :
    i ∈ ((cfg0.win 8).blk t).view.set ↔ ∀ a : Fin 2, win0_8.index t a * S6400x128.size a ≤ (i a).val ∧ (i a).val < win0_8.index t a * S6400x128.size a + S6400x128.size a := by
  show i ∈ ((View.whole main_v34_0).slice (win0_8.rect t)).set ↔ _
  rw [View.set_slice_whole, Rect.mem_set_unit]
  exact Iff.rfl

theorem mem_blk9 (t : Fin cfg0.N) (i : S800000x3.Idx) :
    i ∈ ((cfg0.win 9).blk t).view.set ↔ ∀ a : Fin 2, win0_9.index t a * S6400x3.size a ≤ (i a).val ∧ (i a).val < win0_9.index t a * S6400x3.size a + S6400x3.size a := by
  show i ∈ ((View.whole main_v34_1).slice (win0_9.rect t)).set ↔ _
  rw [View.set_slice_whole, Rect.mem_set_unit]
  exact Iff.rfl

/-- Row `e` of the first result lies in the block of point `e / 6400`. -/
theorem cover8 (i : S800000x128.Idx) : ∃ t : Fin cfg0.N, (cfg0.win 8).flush t = true ∧ i ∈ ((cfg0.win 8).blk t).view.set := by
  have hi0 : (i 0).val < 800000 := (i 0).isLt
  have hi1 : (i 1).val < 128 := (i 1).isLt
  have hN : grid0.N = 125 := N_0
  obtain ⟨t, ht⟩ : ∃ t : Fin cfg0.N, t.val = (i 0).val / 6400 :=
    ⟨⟨(i 0).val / 6400, by show (i 0).val / 6400 < grid0.N; rw [hN]; omega⟩, rfl⟩
  obtain ⟨-, -, -, -, h0, h1, -⟩ := idx_move t
  refine ⟨t, flush0_8 t, ?_⟩
  rw [mem_blk8]
  intro a
  match a with
  | ⟨0, _⟩ => show win0_8.index t (0 : Fin 2) * 6400 ≤ (i 0).val ∧ (i 0).val < win0_8.index t (0 : Fin 2) * 6400 + 6400; rw [h0, ht]; omega
  | ⟨1, _⟩ => show win0_8.index t (1 : Fin 2) * 128 ≤ (i 1).val ∧ (i 1).val < win0_8.index t (1 : Fin 2) * 128 + 128; rw [h1]; omega

/-- Row `e` of the second result lies in the block of point `e / 6400`. -/
theorem cover9 (i : S800000x3.Idx) : ∃ t : Fin cfg0.N, (cfg0.win 9).flush t = true ∧ i ∈ ((cfg0.win 9).blk t).view.set := by
  have hi0 : (i 0).val < 800000 := (i 0).isLt
  have hi1 : (i 1).val < 3 := (i 1).isLt
  have hN : grid0.N = 125 := N_0
  obtain ⟨t, ht⟩ : ∃ t : Fin cfg0.N, t.val = (i 0).val / 6400 :=
    ⟨⟨(i 0).val / 6400, by show (i 0).val / 6400 < grid0.N; rw [hN]; omega⟩, rfl⟩
  obtain ⟨-, -, -, -, -, -, h0, h1⟩ := idx_move t
  refine ⟨t, flush0_9 t, ?_⟩
  rw [mem_blk9]
  intro a
  match a with
  | ⟨0, _⟩ => show win0_9.index t (0 : Fin 2) * 6400 ≤ (i 0).val ∧ (i 0).val < win0_9.index t (0 : Fin 2) * 6400 + 6400; rw [h0, ht]; omega
  | ⟨1, _⟩ => show win0_9.index t (1 : Fin 2) * 3 ≤ (i 1).val ∧ (i 1).val < win0_9.index t (1 : Fin 2) * 3 + 3; rw [h1]; omega

/-! ## The result arrays after the region -/

/-- The first result array ends holding `G8`: every block written is the block of `G8`, and the blocks cover the array. -/
theorem final8 (c : Dev nD) : (dats m 0 c).arrAt 8 cfg0.N = G8 m c :=
  (dats m 0 c).arrAt_eq_of_cover 8 (G8 m c) (fun t _ => flushed8_eq m c t) cover8

/-- The second result array ends holding `G9`. -/
theorem final9 (c : Dev nD) : (dats m 0 c).arrAt 9 cfg0.N = G9 m c :=
  (dats m 0 c).arrAt_eq_of_cover 9 (G9 m c) (fun t _ => flushed9_eq m c t) cover9

/-! ## The run, read -/

/-- The program terminates without fault, its two results hold `G8` and `G9` of the arguments, and its fifteen
    arguments are as launched. -/
theorem run : θ_run defs (onTc (τ := τ) (main (F := Ideal))) ⟨m, fun _ => 0, ρ⟩ (fun r => ∀ c : Dev nD,
      r.2.mem ((c.tc : Thread nD τ).loc main_v34_0) = G8 m c
      ∧ r.2.mem ((c.tc : Thread nD τ).loc main_v34_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 8).trans (final8 m c), ((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats m 0 c).arrAt_in 1 rfl _).trans ((A_eq m c 1).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.KVal

end
-- ==== Proof.RefFilter.lean ====
/-
  The reference's two results are the filter network of the specification.

  Each result of the reference is, index by index, an affine output layer applied to the gated activation of an
  affine hidden layer of the 35 edge features; the features are the concatenation along the feature axis of the 32
  radial-basis values and the 3 invariants.  The reference spells the logistic function as 1 / (1 + exp (-x)) with
  the constant one given by its bit pattern.  Nothing here uses an algebraic law: the two sides are the same sums
  of the same products in the same order, and only the index functions of the layout operations are identified
  with the coordinates of the specification.
-/
import proofs.«117489_j53154515255878_2_alg».proof.Proof.Gen.ReferenceIdeal.Read
import proofs.«117489_j53154515255878_2_alg».proof.Proof.Spec
import Idealize.ShloMosaic.Lib.IdealHost

noncomputable section

open scoped BigOperators

namespace Cert.ReferenceIdeal.RefFilter

open Cert.ReferenceIdeal Cert.ReferenceIdeal.Gen Cert.ReferenceIdeal.Read Idealize.ShloMosaic Idealize.ShloMosaic.ValueIdx

/-- The feature array at edge `e`, feature `j`: the concatenation of the radial-basis values [800000, 32] and any
    array [800000, 3] along the feature axis reads the first below column 32 and the second, 32 columns less, from
    column 32 on.  That is the specification's feature vector of the edge. -/
theorem cat_apply (x5 : (⟨S800000x32, .f32⟩ : BufTy).Contents (Elt Ideal)) (y : (⟨S800000x3, .f32⟩ : BufTy).Contents (Elt Ideal))
    (e : Fin 800000) (j : Fin 35) :
    concatenate S800000x35 1 [⟨S800000x32, x5⟩, ⟨S800000x3, y⟩] concatenates_S800000x32_S800000x3_S800000x35_d1 (ix2 e j)
      = Cert.Filter.feat (fun j => x5 (ix2 e j)) (fun j => y (ix2 e j)) j := by
  unfold Cert.Filter.feat
  split
  · next h =>
    exact concatenate_pair_apply_left (t := S800000x35) (s₁ := S800000x32) (s₂ := S800000x3) (1 : Fin 2) x5 y
      concatenates_S800000x32_S800000x3_S800000x35_d1 (ix2 e j) rfl (ix2 e (⟨j.val, h⟩ : Fin 32)) (by
        intro b
        match b with
        | ⟨0, _⟩ => rfl
        | ⟨1, _⟩ => rfl)
  · next h =>
    exact concatenate_pair_apply_right (t := S800000x35) (s₁ := S800000x32) (s₂ := S800000x3) (1 : Fin 2) x5 y
      concatenates_S800000x32_S800000x3_S800000x35_d1 (ix2 e j) rfl rfl
      (ix2 e (⟨j.val - 32, by have := j.isLt; omega⟩ : Fin 3)) (by
        intro b hb
        match b with
        | ⟨0, _⟩ => rfl
        | ⟨1, _⟩ => exact absurd rfl hb) (by
        show j.val - 32 + 32 = j.val; omega)

/-- The reference's spelling of the gated activation: x · (1 / (1 + exp (-x))), the ones given by their bit pattern. -/
theorem silu_spelt (v : EReal) :
    FloatOps.mulf (F := Ideal) (φ := .f32) v (FloatOps.hostDivf (FloatOps.ofBits .f32 0x3F800000#32)
      (FloatOps.addf (FloatOps.ofBits .f32 0x3F800000#32) (FloatOps.hostUnary .exp (FloatOps.hostNegf v))))
      = Cert.Filter.silu v := by
  rw [Ideal.ofBits_def, Ideal.ofBits_one_f32]
  rfl

/-! ## The first result: the invariant filter (hidden layer %32 … %36, output layer %37 … %40) -/

/-- The hidden layer's bias, broadcast over the edges, reads the bias at the unit. -/
theorem v34_apply (x8 : (⟨S128, .f32⟩ : BufTy).Contents (Elt Ideal)) (e : Fin 800000) (k : Fin 128) :
    val_main_v34 (F := Ideal) x8 (ix2 e k) = x8 (ix1 k) := by
  rw [val_main_v34_apply, val_main_v33_apply]
  exact congrArg x8 (funext fun a => Fin.ext (by match a with | ⟨0, _⟩ => rfl))

/-- The output layer's bias, broadcast over the edges, reads the bias at the unit. -/
theorem v39_apply (x10 : (⟨S128, .f32⟩ : BufTy).Contents (Elt Ideal)) (e : Fin 800000) (f : Fin 128) :
    val_main_v39 (F := Ideal) x10 (ix2 e f) = x10 (ix1 f) := by
  rw [val_main_v39_apply, val_main_v38_apply]
  exact congrArg x10 (funext fun a => Fin.ext (by match a with | ⟨0, _⟩ => rfl))

/-- The hidden layer before the activation: the affine form of the edge's features. -/
theorem v35_apply (x1 : (⟨S50000x15, .f32⟩ : BufTy).Contents (Elt Ideal)) (x2 x3 : (⟨S800000, .i32⟩ : BufTy).Contents (Elt Ideal))
    (x5 : (⟨S800000x32, .f32⟩ : BufTy).Contents (Elt Ideal)) (x7 : (⟨S35x128, .f32⟩ : BufTy).Contents (Elt Ideal))
    (x8 : (⟨S128, .f32⟩ : BufTy).Contents (Elt Ideal)) (e : Fin 800000) (k : Fin 128) :
    val_main_v35 (F := Ideal) x1 x2 x3 x5 x7 x8 (ix2 e k)
      = (∑ j : Fin 35, Cert.Filter.feat (fun j => x5 (ix2 e j)) (fun j => val_main_v30 (F := Ideal) x1 x2 x3 (ix2 e j)) j
            * x7 (ix2 j k)) + x8 (ix1 k) := by
  rw [val_main_v35_apply, val_main_v32_apply, v34_apply, Ideal.addf_def]
  refine congrArg (· + x8 (ix1 k)) (Finset.sum_congr rfl fun j _ => ?_)
  have el : lidx_main_v32 (ix2 e k) j = ix2 e j :=
    funext fun a => Fin.ext (by match a with | ⟨0, _⟩ => rfl | ⟨1, _⟩ => rfl)
  have er : ridx_main_v32 (ix2 e k) j = ix2 j k :=
    funext fun a => Fin.ext (by match a with | ⟨0, _⟩ => rfl | ⟨1, _⟩ => rfl)
  rw [el, er]
  unfold val_main_v31
  rw [cat_apply]

/-- The hidden layer after the activation. -/
theorem v36_apply (x1 : (⟨S50000x15, .f32⟩ : BufTy).Contents (Elt Ideal)) (x2 x3 : (⟨S800000, .i32⟩ : BufTy).Contents (Elt Ideal))
    (x5 : (⟨S800000x32, .f32⟩ : BufTy).Contents (Elt Ideal)) (x7 : (⟨S35x128, .f32⟩ : BufTy).Contents (Elt Ideal))
    (x8 : (⟨S128, .f32⟩ : BufTy).Contents (Elt Ideal)) (i : S800000x128.Idx) :
    val_main_v36 (F := Ideal) x1 x2 x3 x5 x7 x8 i = Cert.Filter.silu (val_main_v35 (F := Ideal) x1 x2 x3 x5 x7 x8 i) := by
  rw [val_main_v36_apply, val_main_call0_v5_apply, val_main_call0_v4_apply, val_main_call0_cst_0_apply,
    val_main_call0_v3_apply, val_main_call0_v2_apply, val_main_call0_cst_apply, val_main_call0_v1_apply,
    val_main_call0_v0_apply]
  exact silu_spelt _

theorem ref_inv (x1 : (⟨S50000x15, .f32⟩ : BufTy).Contents (Elt Ideal)) (x2 x3 : (⟨S800000, .i32⟩ : BufTy).Contents (Elt Ideal))
    (x5 : (⟨S800000x32, .f32⟩ : BufTy).Contents (Elt Ideal)) (x7 : (⟨S35x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) :
    val_main_v40 (F := Ideal) x1 x2 x3 x5 x7 x8 x9 x10
      = Cert.Filter.filter (n := 128) x5 (val_main_v30 (F := Ideal) x1 x2 x3) x7 x8 x9 x10 := by
  funext i
  obtain ⟨e, f, rfl⟩ : ∃ (e : Fin 800000) (f : Fin 128), i = ix2 e f := ⟨i 0, i 1, eq_ix2 i⟩
  rw [Cert.Filter.filter_apply, val_main_v40_apply, val_main_v37_apply, v39_apply, Ideal.addf_def]
  unfold Cert.Filter.net
  refine congrArg (· + x10 (ix1 f)) (Finset.sum_congr rfl fun k _ => ?_)
  have el : lidx_main_v37 (ix2 e f) k = ix2 e k :=
    funext fun a => Fin.ext (by match a with | ⟨0, _⟩ => rfl | ⟨1, _⟩ => rfl)
  have er : ridx_main_v37 (ix2 e f) k = ix2 k f :=
    funext fun a => Fin.ext (by match a with | ⟨0, _⟩ => rfl | ⟨1, _⟩ => rfl)
  rw [el, er, v36_apply, v35_apply]
  rfl

/-! ## The second result: the equivariant filter (hidden layer %42 … %46, output layer %47 … %50) -/

/-- The hidden layer's bias, broadcast over the edges, reads the bias at the unit. -/
theorem v44_apply (x12 : (⟨S128, .f32⟩ : BufTy).Contents (Elt Ideal)) (e : Fin 800000) (k : Fin 128) :
    val_main_v44 (F := Ideal) x12 (ix2 e k) = x12 (ix1 k) := by
  rw [val_main_v44_apply, val_main_v43_apply]
  exact congrArg x12 (funext fun a => Fin.ext (by match a with | ⟨0, _⟩ => rfl))

/-- The output layer's bias, broadcast over the edges, reads the bias at the unit. -/
theorem v49_apply (x14 : (⟨S3, .f32⟩ : BufTy).Contents (Elt Ideal)) (e : Fin 800000) (f : Fin 3) :
    val_main_v49 (F := Ideal) x14 (ix2 e f) = x14 (ix1 f) := by
  rw [val_main_v49_apply, val_main_v48_apply]
  exact congrArg x14 (funext fun a => Fin.ext (by match a with | ⟨0, _⟩ => rfl))

/-- The hidden layer before the activation: the affine form of the edge's features. -/
theorem v45_apply (x1 : (⟨S50000x15, .f32⟩ : BufTy).Contents (Elt Ideal)) (x2 x3 : (⟨S800000, .i32⟩ : BufTy).Contents (Elt Ideal))
    (x5 : (⟨S800000x32, .f32⟩ : BufTy).Contents (Elt Ideal)) (x11 : (⟨S35x128, .f32⟩ : BufTy).Contents (Elt Ideal))
    (x12 : (⟨S128, .f32⟩ : BufTy).Contents (Elt Ideal)) (e : Fin 800000) (k : Fin 128) :
    val_main_v45 (F := Ideal) x1 x2 x3 x5 x11 x12 (ix2 e k)
      = (∑ j : Fin 35, Cert.Filter.feat (fun j => x5 (ix2 e j)) (fun j => val_main_v30 (F := Ideal) x1 x2 x3 (ix2 e j)) j
            * x11 (ix2 j k)) + x12 (ix1 k) := by
  rw [val_main_v45_apply, val_main_v42_apply, v44_apply, Ideal.addf_def]
  refine congrArg (· + x12 (ix1 k)) (Finset.sum_congr rfl fun j _ => ?_)
  have el : lidx_main_v42 (ix2 e k) j = ix2 e j :=
    funext fun a => Fin.ext (by match a with | ⟨0, _⟩ => rfl | ⟨1, _⟩ => rfl)
  have er : ridx_main_v42 (ix2 e k) j = ix2 j k :=
    funext fun a => Fin.ext (by match a with | ⟨0, _⟩ => rfl | ⟨1, _⟩ => rfl)
  rw [el, er]
  unfold val_main_v41
  rw [cat_apply]

/-- The hidden layer after the activation. -/
theorem v46_apply (x1 : (⟨S50000x15, .f32⟩ : BufTy).Contents (Elt Ideal)) (x2 x3 : (⟨S800000, .i32⟩ : BufTy).Contents (Elt Ideal))
    (x5 : (⟨S800000x32, .f32⟩ : BufTy).Contents (Elt Ideal)) (x11 : (⟨S35x128, .f32⟩ : BufTy).Contents (Elt Ideal))
    (x12 : (⟨S128, .f32⟩ : BufTy).Contents (Elt Ideal)) (i : S800000x128.Idx) :
    val_main_v46 (F := Ideal) x1 x2 x3 x5 x11 x12 i = Cert.Filter.silu (val_main_v45 (F := Ideal) x1 x2 x3 x5 x11 x12 i) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply]
  exact silu_spelt _

theorem ref_ev (x1 : (⟨S50000x15, .f32⟩ : BufTy).Contents (Elt Ideal)) (x2 x3 : (⟨S800000, .i32⟩ : BufTy).Contents (Elt Ideal))
    (x5 : (⟨S800000x32, .f32⟩ : BufTy).Contents (Elt Ideal)) (x11 : (⟨S35x128, .f32⟩ : BufTy).Contents (Elt Ideal))
    (x12 : (⟨S128, .f32⟩ : BufTy).Contents (Elt Ideal)) (x13 : (⟨S128x3, .f32⟩ : BufTy).Contents (Elt Ideal))
    (x14 : (⟨S3, .f32⟩ : BufTy).Contents (Elt Ideal)) :
    val_main_v50 (F := Ideal) x1 x2 x3 x5 x11 x12 x13 x14
      = Cert.Filter.filter (n := 3) x5 (val_main_v30 (F := Ideal) x1 x2 x3) x11 x12 x13 x14 := by
  funext i
  obtain ⟨e, f, rfl⟩ : ∃ (e : Fin 800000) (f : Fin 3), i = ix2 e f := ⟨i 0, i 1, eq_ix2 i⟩
  rw [Cert.Filter.filter_apply, val_main_v50_apply, val_main_v47_apply, v49_apply, Ideal.addf_def]
  unfold Cert.Filter.net
  refine congrArg (· + x14 (ix1 f)) (Finset.sum_congr rfl fun k _ => ?_)
  have el : lidx_main_v47 (ix2 e f) k = ix2 e k :=
    funext fun a => Fin.ext (by match a with | ⟨0, _⟩ => rfl | ⟨1, _⟩ => rfl)
  have er : ridx_main_v47 (ix2 e f) k = ix2 k f :=
    funext fun a => Fin.ext (by match a with | ⟨0, _⟩ => rfl | ⟨1, _⟩ => rfl)
  rw [el, er, v46_apply, v45_apply]
  rfl

end Cert.ReferenceIdeal.RefFilter

end
-- ==== Proof.HostInv.lean ====
/-
  The rotation invariants as the kernel program's host operations compute them, and that they are the reference's.

  From the table of node features [50000, 15] and the two index arrays the host operations gather the two end points'
  rows, subtract them, SQUARE the difference [800000, 15], and sum the squares over the three column groups 0:3, 3:8
  and 8:15; the three sums, as columns, are joined into the invariants [800000, 3].  The reference slices the
  difference first and squares each slice.  A slice of an elementwise product is the product of the slices, element
  by element the same product of the same two numbers, so the two arrays are equal with no law of arithmetic used.
-/
import proofs.«117489_j53154515255878_2_alg».proof.Proof.Gen.KernelIdeal.Launch
import proofs.«117489_j53154515255878_2_alg».proof.Proof.Gen.ReferenceIdeal.Read
import Idealize.ShloMosaic.Lib.StableHlo.Run

noncomputable section

namespace Cert.KernelIdeal.HostInv

open Cert.KernelIdeal Cert.KernelIdeal.Gen Idealize.ShloMosaic Idealize.ShloMosaic.TcCoe Idealize.SL.Sem Idealize.ShloMosaic.StableHlo

/-! ## A line of operations run in two stretches -/

/-- Running two lines one after the other is running their concatenation. -/
theorem after_append {t : Topo} {sg : RefSig} {Val : EltTy → Type} (l₁ l₂ : List (HloOp t sg Val)) (V : Valuation t sg Val) :
    after (l₁ ++ l₂) V = after l₂ (after l₁ V) := by
  induction l₁ generalizing V with
  | nil => rfl
  | cons op l ih => exact ih (op.result V)

/-- A line run as its first `n` operations and then the rest. -/
theorem after_split {t : Topo} {sg : RefSig} {Val : EltTy → Type} (n : Nat) (l : List (HloOp t sg Val)) (V : Valuation t sg Val) :
    after l V = after (l.drop n) (after (l.take n) V) := by
  rw [← after_append, List.take_append_drop]

/-! ## The invariants as a term of the arguments -/

/-- An index array with its negative entries wrapped around by the table's 50000 rows, as a column [800000, 1]. -/
def kidx (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The difference of the two end points' feature rows, [800000, 15]. -/
def kdiff (x1 : (⟨S50000x15, .f32⟩ : BufTy).Contents (Elt Ideal)) (x2 x3 : (⟨S800000, .i32⟩ : BufTy).Contents (Elt Ideal)) :
    (⟨S800000x15, .f32⟩ : BufTy).Contents (Elt Ideal) :=
  subf (F := Ideal) (φ := .f32) (Host.gather gather_S50000x15_S800000x1_S800000x15_1_0_n_n_0_1_115 x1 (kidx x2))
    (Host.gather gather_S50000x15_S800000x1_S800000x15_1_0_n_n_0_1_115 x1 (kidx x3))

/-- Its elementwise square. -/
def ksq (x1 : (⟨S50000x15, .f32⟩ : BufTy).Contents (Elt Ideal)) (x2 x3 : (⟨S800000, .i32⟩ : BufTy).Contents (Elt Ideal)) :
    (⟨S800000x15, .f32⟩ : BufTy).Contents (Elt Ideal) :=
  mulf (F := Ideal) (φ := .f32) (kdiff x1 x2 x3) (kdiff x1 x2 x3)

/-- The sum over columns 0:3 of an array [800000, 15], as a column. -/
def norm3 (q : (⟨S800000x15, .f32⟩ : BufTy).Contents (Elt Ideal)) : (⟨S800000x1, .f32⟩ : BufTy).Contents (Elt Ideal) :=
  broadcastInDim S800000x1 ![0] bcast_S800000_S800000x1_0
    (Host.reduceAdd (extractStridedSlice S800000x3 ![0, 0] q slices_S800000x15_S800000x3_0_0)
      (constant (F := Ideal) S_ .f32 0x00000000#32) reducesTo_S800000x3_S800000_d1 h_S_)

/-- The sum over columns 3:8, as a column. -/
def norm5 (q : (⟨S800000x15, .f32⟩ : BufTy).Contents (Elt Ideal)) : (⟨S800000x1, .f32⟩ : BufTy).Contents (Elt Ideal) :=
  broadcastInDim S800000x1 ![0] bcast_S800000_S800000x1_0
    (Host.reduceAdd (extractStridedSlice S800000x5 ![0, 3] q slices_S800000x15_S800000x5_0_3)
      (constant (F := Ideal) S_ .f32 0x00000000#32) reducesTo_S800000x5_S800000_d1 h_S_)

/-- The sum over columns 8:15, as a column. -/
def norm7 (q : (⟨S800000x15, .f32⟩ : BufTy).Contents (Elt Ideal)) : (⟨S800000x1, .f32⟩ : BufTy).Contents (Elt Ideal) :=
  broadcastInDim S800000x1 ![0] bcast_S800000_S800000x1_0
    (Host.reduceAdd (extractStridedSlice S800000x7 ![0, 8] q slices_S800000x15_S800000x7_0_8)
      (constant (F := Ideal) S_ .f32 0x00000000#32) reducesTo_S800000x7_S800000_d1 h_S_)

/-- The three column sums of an array [800000, 15], joined: [800000, 3]. -/
def norms (q : (⟨S800000x15, .f32⟩ : BufTy).Contents (Elt Ideal)) : (⟨S800000x3, .f32⟩ : BufTy).Contents (Elt Ideal) :=
  concatenate S800000x3 1 [⟨S800000x1, norm3 q⟩, ⟨S800000x1, norm5 q⟩, ⟨S800000x1, norm7 q⟩]
    concatenates_S800000x1_S800000x1_S800000x1_S800000x3_d1

/-- The rotation invariants the kernel program's host operations compute. -/
def kinv (x1 : (⟨S50000x15, .f32⟩ : BufTy).Contents (Elt Ideal)) (x2 x3 : (⟨S800000, .i32⟩ : BufTy).Contents (Elt Ideal)) :
    (⟨S800000x3, .f32⟩ : BufTy).Contents (Elt Ideal) :=
  norms (ksq x1 x2 x3)

/-! ## The host operations' run, in three stretches: the squared difference, the three column sums, the join -/

/-- The first twenty operations leave the squared difference of the gathered rows at %15. -/
theorem segA (W : Valuation τ sig (Elt Ideal)) :
    (after (List.take 20 (List.take 32 (hostOps0 (F := Ideal)))) W (Proc.devRef .tc main_v15) : (⟨S800000x15, .f32⟩ : BufTy).Contents (Elt Ideal))
      = ksq (W (Proc.devRef .tc main_arg1)) (W (Proc.devRef .tc main_arg2)) (W (Proc.devRef .tc main_arg3)) := by
  simp only [hostOps0, List.take_succ_cons, List.take_zero]
  after_results_simp
  rfl

/-- The next twelve operations leave the three column sums of whatever %15 holds at %18, %21 and %24. -/
theorem segB18 (V : Valuation τ sig (Elt Ideal)) :
    (after (List.drop 20 (List.take 32 (hostOps0 (F := Ideal)))) V (Proc.devRef .tc main_v18) : (⟨S800000x1, .f32⟩ : BufTy).Contents (Elt Ideal))
      = norm3 (V (Proc.devRef .tc main_v15)) := by
  simp only [hostOps0, List.take_succ_cons, List.take_zero, List.drop_succ_cons, List.drop_zero]
  after_results_simp
  rfl

theorem segB21 (V : Valuation τ sig (Elt Ideal)) :
    (after (List.drop 20 (List.take 32 (hostOps0 (F := Ideal)))) V (Proc.devRef .tc main_v21) : (⟨S800000x1, .f32⟩ : BufTy).Contents (Elt Ideal))
      = norm5 (V (Proc.devRef .tc main_v15)) := by
  simp only [hostOps0, List.take_succ_cons, List.take_zero, List.drop_succ_cons, List.drop_zero]
  after_results_simp
  rfl

theorem segB24 (V : Valuation τ sig (Elt Ideal)) :
    (after (List.drop 20 (List.take 32 (hostOps0 (F := Ideal)))) V (Proc.devRef .tc main_v24) : (⟨S800000x1, .f32⟩ : BufTy).Contents (Elt Ideal))
      = norm7 (V (Proc.devRef .tc main_v15)) := by
  simp only [hostOps0, List.take_succ_cons, List.take_zero, List.drop_succ_cons, List.drop_zero]
  after_results_simp
  rfl

/-- The join of %18, %21 and %24 is written to %25, and the eight operations after it leave %25 alone. -/
theorem segC (V : Valuation τ sig (Elt Ideal)) :
    (after (List.drop 32 (hostOps0 (F := Ideal))) V (Proc.devRef .tc main_v25) : (⟨S800000x3, .f32⟩ : BufTy).Contents (Elt Ideal))
      = concatenate S800000x3 1 [⟨S800000x1, V (Proc.devRef .tc main_v18)⟩, ⟨S800000x1, V (Proc.devRef .tc main_v21)⟩,
          ⟨S800000x1, V (Proc.devRef .tc main_v24)⟩] concatenates_S800000x1_S800000x1_S800000x1_S800000x3_d1 := by
  simp only [hostOps0, List.drop_succ_cons, List.drop_zero]
  after_results_simp
  rfl

/-- After the kernel program's host operations, from any contents `W`, the buffer %25 holds the invariants of the
    arguments' contents. -/
theorem after_inv (W : Valuation τ sig (Elt Ideal)) :
    (StableHlo.after (hostOps0 (F := Ideal)) W (Proc.devRef .tc main_v25) : (⟨S800000x3, .f32⟩ : BufTy).Contents (Elt Ideal))
      = kinv (W (Proc.devRef .tc main_arg1)) (W (Proc.devRef .tc main_arg2)) (W (Proc.devRef .tc main_arg3)) := by
  rw [after_split 32, segC, after_split 20 (List.take 32 _), segB18, segB21, segB24, segA]
  rfl

/-! ## The kernel program's invariants are the reference's -/

/-- A slice of an elementwise square is the elementwise square of the slice: at each element the same product. -/
theorem slice_sq {T : Shape} (off : Fin S800000x15.rank → Nat) (d : (⟨S800000x15, .f32⟩ : BufTy).Contents (Elt Ideal))
    (h : S800000x15.Slices off T) :
    extractStridedSlice T off (mulf (F := Ideal) (φ := .f32) d d) h
      = mulf (F := Ideal) (φ := .f32) (extractStridedSlice T off d h) (extractStridedSlice T off d h) := rfl

/-- The difference of the gathered rows is the reference's: the same operations on the same arguments. -/
theorem kdiff_eq_ref (x1 : (⟨S50000x15, .f32⟩ : BufTy).Contents (Elt Ideal)) (x2 x3 : (⟨S800000, .i32⟩ : BufTy).Contents (Elt Ideal)) :
    kdiff x1 x2 x3 = Cert.ReferenceIdeal.Read.val_main_v14 (F := Ideal) x1 x2 x3 := rfl

/-- The three column sums of a square, joined, are the reference's join of the sums of the squared slices. -/
theorem norms_sq (d : (⟨S800000x15, .f32⟩ : BufTy).Contents (Elt Ideal)) :
    norms (mulf (F := Ideal) (φ := .f32) d d)
      = concatenate S800000x3 1
          [⟨S800000x1, broadcastInDim S800000x1 ![0] bcast_S800000_S800000x1_0
              (Host.reduceAdd (mulf (F := Ideal) (φ := .f32) (extractStridedSlice S800000x3 ![0, 0] d slices_S800000x15_S800000x3_0_0)
                  (extractStridedSlice S800000x3 ![0, 0] d slices_S800000x15_S800000x3_0_0))
                (constant (F := Ideal) S_ .f32 0x00000000#32) reducesTo_S800000x3_S800000_d1 h_S_)⟩,
           ⟨S800000x1, broadcastInDim S800000x1 ![0] bcast_S800000_S800000x1_0
              (Host.reduceAdd (mulf (F := Ideal) (φ := .f32) (extractStridedSlice S800000x5 ![0, 3] d slices_S800000x15_S800000x5_0_3)
                  (extractStridedSlice S800000x5 ![0, 3] d slices_S800000x15_S800000x5_0_3))
                (constant (F := Ideal) S_ .f32 0x00000000#32) reducesTo_S800000x5_S800000_d1 h_S_)⟩,
           ⟨S800000x1, broadcastInDim S800000x1 ![0] bcast_S800000_S800000x1_0
              (Host.reduceAdd (mulf (F := Ideal) (φ := .f32) (extractStridedSlice S800000x7 ![0, 8] d slices_S800000x15_S800000x7_0_8)
                  (extractStridedSlice S800000x7 ![0, 8] d slices_S800000x15_S800000x7_0_8))
                (constant (F := Ideal) S_ .f32 0x00000000#32) reducesTo_S800000x7_S800000_d1 h_S_)⟩]
          concatenates_S800000x1_S800000x1_S800000x1_S800000x3_d1 := by
  unfold norms norm3 norm5 norm7
  rw [slice_sq, slice_sq, slice_sq]

/-- The invariants the kernel program's host operations compute are the reference's. -/
theorem kinv_eq_ref (x1 : (⟨S50000x15, .f32⟩ : BufTy).Contents (Elt Ideal)) (x2 x3 : (⟨S800000, .i32⟩ : BufTy).Contents (Elt Ideal)) :
    kinv x1 x2 x3 = Cert.ReferenceIdeal.Read.val_main_v30 (F := Ideal) x1 x2 x3 := by
  unfold kinv ksq
  rw [kdiff_eq_ref, norms_sq]
  unfold Cert.ReferenceIdeal.Read.val_main_v30
    Cert.ReferenceIdeal.Read.val_main_v19 Cert.ReferenceIdeal.Read.val_main_v18 Cert.ReferenceIdeal.Read.val_main_v17
    Cert.ReferenceIdeal.Read.val_main_v16 Cert.ReferenceIdeal.Read.val_main_v15 Cert.ReferenceIdeal.Read.val_main_cst
    Cert.ReferenceIdeal.Read.val_main_v24 Cert.ReferenceIdeal.Read.val_main_v23 Cert.ReferenceIdeal.Read.val_main_v22
    Cert.ReferenceIdeal.Read.val_main_v21 Cert.ReferenceIdeal.Read.val_main_v20 Cert.ReferenceIdeal.Read.val_main_cst_3
    Cert.ReferenceIdeal.Read.val_main_v29 Cert.ReferenceIdeal.Read.val_main_v28 Cert.ReferenceIdeal.Read.val_main_v27
    Cert.ReferenceIdeal.Read.val_main_v26 Cert.ReferenceIdeal.Read.val_main_v25 Cert.ReferenceIdeal.Read.val_main_cst_4
  generalize Cert.ReferenceIdeal.Read.val_main_v14 (F := Ideal) x1 x2 x3 = d
  rfl

end Cert.KernelIdeal.HostInv

end
-- ==== Proof.lean ====
/-
  Two filter networks on the edges of a graph, computed by a tiled kernel and by a plain array program.

  Both programs first gather the two end nodes' 15 equivariant features of every edge, take their difference,
  square it and sum the squares over the three groups of columns (3, 5 and 7 wide): three rotation invariants per
  edge. These join the edge's 32 radial-basis values to 35 features, which go through two networks with one
  hidden layer of width 128 and the activation x · σ(x): one with 128 outputs, one with 3.

  The kernel program squares the whole difference before slicing the three groups (the reference slices first:
  the same numbers), fuses the two first layers into one product with the two weight matrices side by side and
  the two biases end to end, and runs the networks on blocks of 6400 edges, one block per grid point; the array
  it writes back is, index by index, the specification's network of the edge's features (KernelValue). The
  reference's two results are the same specification (RefFilter). All of it holds on the extended reals without
  any finiteness assumption: no step moves a factor across a sum.

  The word-level kernel and its idealization differ in nothing the ideal pass records, so the preservation claim
  is trivial; the three frame claims are the programs' runs with the results forgotten.
-/
import proofs.«117489_j53154515255878_2_alg».proof.Defs
import proofs.«117489_j53154515255878_2_alg».proof.Proof.Gen.Kernel
import proofs.«117489_j53154515255878_2_alg».proof.Proof.Gen.KernelIdeal
import proofs.«117489_j53154515255878_2_alg».proof.Proof.Gen.ReferenceIdeal
import proofs.«117489_j53154515255878_2_alg».proof.Proof.Gen.Pre_finite_inputs
import proofs.«117489_j53154515255878_2_alg».proof.Proof.Gen.ReferenceIdeal.Read
import proofs.«117489_j53154515255878_2_alg».proof.Proof.FrameKRun
import proofs.«117489_j53154515255878_2_alg».proof.Proof.FrameKIRun
import proofs.«117489_j53154515255878_2_alg».proof.Proof.KernelValue
import proofs.«117489_j53154515255878_2_alg».proof.Proof.RefFilter
import proofs.«117489_j53154515255878_2_alg».proof.Proof.HostInv

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs to its end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a line of host operations: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The invariants the kernel program's host operations leave for the region are the reference's invariants of the
    same arguments. -/
theorem inv_eq (m : (ℓ : Loc Cert.KernelIdeal.nD Cert.KernelIdeal.τ Cert.KernelIdeal.sig) → Buf (Elt Ideal) ℓ) (c : Dev Cert.KernelIdeal.nD) :
    Cert.KernelIdeal.Fr.V m c Cert.KernelIdeal.main_v25
      = Cert.ReferenceIdeal.Read.val_main_v30 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (Cert.KernelIdeal.HostInv.after_inv (fun b => m (c, b))).trans (Cert.KernelIdeal.HostInv.kinv_eq_ref _ _ _)

/-- At the ideal instance, from memories that agree on the arguments, both programs end with the specification's
    two networks of the arguments in their result arrays. -/
theorem algebraic : Cert.algebraic_KernelIdeal_ReferenceIdeal := by
  intro m ρ m' ρ' _ hagree
  refine ⟨fun c => Cert.KernelIdeal.KVal.G8 m c, fun c => Cert.KernelIdeal.KVal.G9 m c, Cert.KernelIdeal.KVal.run m ρ, ?_⟩
  refine (θ_run Cert.ReferenceIdeal.defs _ _).mono (fun r h c => ⟨?_, ?_, (h c).2.2⟩)
    (Cert.ReferenceIdeal.Value.run (F := Ideal) m' ρ')
  · obtain ⟨-, e1, e2, e3, -, e5, -, e7, e8, e9, e10, -, -, -, -⟩ := hagree c
    rw [(h c).1, Cert.ReferenceIdeal.Read.val_main_v40_eq, Cert.ReferenceIdeal.RefFilter.ref_inv, e1, e2, e3, e5, e7, e8, e9, e10]
    show _ = Cert.KernelIdeal.KVal.G8 m c
    unfold Cert.KernelIdeal.KVal.G8
    rw [inv_eq m c]
  · obtain ⟨-, e1, e2, e3, -, e5, -, -, -, -, -, e11, e12, e13, e14⟩ := hagree c
    rw [(h c).2.1, Cert.ReferenceIdeal.Read.val_main_v50_eq, Cert.ReferenceIdeal.RefFilter.ref_ev, e1, e2, e3, e5, e11, e12, e13, e14]
    show _ = Cert.KernelIdeal.KVal.G9 m c
    unfold Cert.KernelIdeal.KVal.G9
    rw [inv_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
